-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x4096 .f32) (main_arg1 : FVec F S4096x4096 .f32) (main_arg2 : FVec F S4096x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4096x4096 : Shape := ⟨2, ![4096, 4096]⟩
abbrev S4096x128 : Shape := ⟨2, ![4096, 128]⟩
abbrev S8x8x128 : Shape := ⟨3, ![8, 8, 128]⟩
abbrev S512x128 : Shape := ⟨2, ![512, 128]⟩
abbrev S512x512 : Shape := ⟨2, ![512, 512]⟩
abbrev S1x8x128 : Shape := ⟨3, ![1, 8, 128]⟩
abbrev S1x1 : Shape := ⟨2, ![1, 1]⟩
abbrev S128x512 : Shape := ⟨2, ![128, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x128, .f32⟩
  | .hbm, ⟨3, _⟩ => ⟨S8x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [1] S512
  reduces_S512x1_S1 : S512x1.Reduces [0] S1
  shapeCasts_S1_S1x1 : S1.ShapeCasts S1x1
  iota_S1x8x128_d1_w32 : S1x8x128.Iotas .tc 32 [1]
  iota_S1x8x128_d2_w32 : S1x8x128.Iotas .tc 32 [2]
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S8x8x128_S_d0_1_2 : S8x8x128.ReducesTo [0, 1, 2] S_
  h_S_ : 0 < S_.numel
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x128 : Shape := ⟨2, ![4096, 128]⟩
abbrev S_ : Shape := ⟨0, ![]⟩
abbrev S4096x256 : Shape := ⟨2, ![4096, 256]⟩
abbrev S256x4096 : Shape := ⟨2, ![256, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x128, .f32⟩
  | .hbm, ⟨3, _⟩ => ⟨S_, .f32⟩
  | .hbm, ⟨4, _⟩ => ⟨S4096x128, .f32⟩
  | .hbm, ⟨5, _⟩ => ⟨S4096x256, .f32⟩
  | .hbm, ⟨6, _⟩ => ⟨S256x4096, .f32⟩
  | .hbm, ⟨7, _⟩ => ⟨S4096x4096, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .i1⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  concatenates_S4096x128_S4096x128_S4096x256_d1 : Shape.Concatenates [S4096x128, S4096x128] S4096x256 1
  transposes_S4096x256_S256x4096_1_0 : S4096x256.Transposes [1, 0] S256x4096
  reducesTo_S4096x256_S4096_d1 : S4096x256.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []
  dot_S4096x1_S1x4096_S4096x4096_1_0_0_1_n_n_wf : DotDims.WF S4096x1 S1x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.KBKit.lean ====
/-
  The pipeline's bookkeeping for the one kernel region: what the region finds in memory, the blocks of the four input
  windows at a grid point, when the accumulator is reset, and the shape of the region's invariant.

  The grid is 8 × 8, point `t` being block row `t / 8` and block column `t % 8`. Windows 0 and 1 both read the label
  table (rows of block `t / 8`, respectively of block `t % 8`), windows 2 and 3 the two prediction tables at block
  `(t / 8, t % 8)`, window 4 is the 1 × 8 × 128 result block of row `t / 8`; a 1 × 1 scratch carries the row's running sum.
-/
import proofs.«152664_j24507083391380_1_alg».proof.Proof.Gen.Kernel.Launch
import proofs.«152664_j24507083391380_1_alg».proof.Proof.Gen.Kernel.Skeleton
import proofs.«152664_j24507083391380_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory as the region finds it -/

/-- No host operation precedes the region: the region finds the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem tail_fresh : (hostOps1 : List (HloOp τ sig (Elt F))).Forall fun op => op.fresh = ∅ := by
  simp only [List.Forall]; repeat' constructor

/-- The entry point is the region followed by the six scalar operations that reduce its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

/-! ## The windows' blocks -/

/-- Window `w`'s block of its table at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the block was just fetched or is the one kept
    from the point before (the block index has then not moved). -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The accumulator's reset -/

/-- The body's one branch: taken where the block column is 0. -/
abbrev resets (i : grid0.Coords) : Prop := (Scalar.cmpi .ne (Scalar.extui (Scalar.cmpi .eq (BitVec.ofNat 32 (i 1).val) 0#32)) 0#32) = 1#1
theorem resets_iff : ∀ t : Fin cfg0.N, resets (grid0.coords t) ↔ t.val % 8 = 0 :=
  (by decide +kernel : ∀ t : Fin grid0.N, resets (grid0.coords t) ↔ t.val % 8 = 0)

/-- No window is ever idle. -/
theorem live_all : ∀ (w : Fin cfg0.W) (t : Fin cfg0.N), cfg0.idle w (grid0.coords t) = false := by decide +kernel

/-! ## The staging buffers at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The running sum's cell. -/
abbrev accM : Memref sig .tc .vmem S1x1 .f32 := Memref.whole cc0_scratch0

/-- What the region may use besides its windows: the running sum's cell at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KBRunCarry.lean ====
/-
  The kernel body run once, symbolically, where the accumulator is carried.
-/
import proofs.«152664_j24507083391380_1_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a block row (block column not 0): the running sum `xs` the point before left in the cell
    gets the block's two loss sums added, and the result block is written from the cell. The lists are the stores each of
    the two buffers ends with, last first: what the symbolic run of the body finds. -/
noncomputable def runCarry (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole) (hc : ¬ resets i)
    (x0 x1 : Vec F S512x128 .f32) (x2 x3 : Vec F S512x512 .f32) (xs : Vec F S1x1 .f32) :
    Σ' (L4 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Hand

end
-- ==== Proof.KBRunReset.lean ====
/-
  The kernel body run once, symbolically, where the accumulator is reset.
-/
import proofs.«152664_j24507083391380_1_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that starts a block row (block column 0): the running sum's cell, whatever it held, is zeroed, the
    block's two loss sums are added, and the result block is written from the cell. The lists are the stores each of the
    two buffers ends with, last first: what the symbolic run of the body finds. -/
noncomputable def runReset (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole) (hc : resets i)
    (x0 x1 : Vec F S512x128 .f32) (x2 x3 : Vec F S512x512 .f32) :
    Σ' (L4 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Hand

end
-- ==== Proof.KBData.lean ====
/-
  What the result block's buffer and the running sum's cell hold after each grid point, the pipeline's proof data built
  from that, and the body's obligation at every point.

  At a point that starts a block row the cell is zeroed and the block's two loss sums are added; at any other point the
  sums are added to what the point before left; either way the result block's buffer is then written from the cell. The
  buffer is written back to the result array only at the last point of a block row, so the array ends holding, per block
  row, the row's complete sum.
-/
import proofs.«152664_j24507083391380_1_alg».proof.Proof.KBRunCarry
import proofs.«152664_j24507083391380_1_alg».proof.Proof.KBRunReset

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the two written buffers' contents are stated (any whole buffer of the shape does). -/
abbrev VO : View sig .tc .vmem S1x8x128 .f32 := (Memref.whole cc0_stg4_0 : Memref sig .tc .vmem S1x8x128 .f32).view
abbrev VS : View sig .tc .vmem S1x1 .f32 := accM.view

section Pieces
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole)
  (x0 x1 : Vec F S512x128 .f32) (x2 x3 : Vec F S512x512 .f32)

/-- After a resetting run the stores into the result block's buffer cover it, -/
theorem coverReset4 (hc : resets i) (y : S1x8x128.Idx) :
    ∃ pc ∈ (runReset c i arg2 harg2 arg3 harg3 arg4 harg4 arg5 harg5 arg6 harg6 arg7 harg7 hc x0 x1 x2 x3).1, y ∈ pc.1.set :=
  View.cover_of_tiledL (runReset c i arg2 harg2 arg3 harg3 arg4 harg4 arg5 harg5 arg6 harg6 arg7 harg7 hc x0 x1 x2 x3).1 S1x8x128.size (by sl_kernel_rfl) y
/-- and so do the stores into the cell. -/
theorem coverResetS (hc : resets i) (y : S1x1.Idx) :
    ∃ pc ∈ (runReset c i arg2 harg2 arg3 harg3 arg4 harg4 arg5 harg5 arg6 harg6 arg7 harg7 hc x0 x1 x2 x3).2.1, y ∈ pc.1.set :=
  View.cover_of_tiledL (runReset c i arg2 harg2 arg3 harg3 arg4 harg4 arg5 harg5 arg6 harg6 arg7 harg7 hc x0 x1 x2 x3).2.1 S1x1.size (by sl_kernel_rfl) y
/-- What a resetting run leaves in the result block's buffer, -/
def outReset (hc : resets i) : Vec F S1x8x128 .f32 :=
  VO.read (Elt F) (VO.writes (Elt F) VO.junk (runReset c i arg2 harg2 arg3 harg3 arg4 harg4 arg5 harg5 arg6 harg6 arg7 harg7 hc x0 x1 x2 x3).1)
/-- and in the cell. -/
def accReset (hc : resets i) : Vec F S1x1 .f32 :=
  VS.read (Elt F) (VS.writes (Elt F) VS.junk (runReset c i arg2 harg2 arg3 harg3 arg4 harg4 arg5 harg5 arg6 harg6 arg7 harg7 hc x0 x1 x2 x3).2.1)

theorem coverCarry4 (hc : ¬ resets i) (xs : Vec F S1x1 .f32) (y : S1x8x128.Idx) :
    ∃ pc ∈ (runCarry c i arg2 harg2 arg3 harg3 arg4 harg4 arg5 harg5 arg6 harg6 arg7 harg7 hc x0 x1 x2 x3 xs).1, y ∈ pc.1.set :=
  View.cover_of_tiledL (runCarry c i arg2 harg2 arg3 harg3 arg4 harg4 arg5 harg5 arg6 harg6 arg7 harg7 hc x0 x1 x2 x3 xs).1 S1x8x128.size (by sl_kernel_rfl) y
theorem coverCarryS (hc : ¬ resets i) (xs : Vec F S1x1 .f32) (y : S1x1.Idx) :
    ∃ pc ∈ (runCarry c i arg2 harg2 arg3 harg3 arg4 harg4 arg5 harg5 arg6 harg6 arg7 harg7 hc x0 x1 x2 x3 xs).2.1, y ∈ pc.1.set :=
  View.cover_of_tiledL (runCarry c i arg2 harg2 arg3 harg3 arg4 harg4 arg5 harg5 arg6 harg6 arg7 harg7 hc x0 x1 x2 x3 xs).2.1 S1x1.size (by sl_kernel_rfl) y
/-- What a carrying run leaves in the result block's buffer and in the cell, the cell having held `xs`. -/
def outCarry (hc : ¬ resets i) (xs : Vec F S1x1 .f32) : Vec F S1x8x128 .f32 :=
  VO.read (Elt F) (VO.writes (Elt F) VO.junk (runCarry c i arg2 harg2 arg3 harg3 arg4 harg4 arg5 harg5 arg6 harg6 arg7 harg7 hc x0 x1 x2 x3 xs).1)
def accCarry (hc : ¬ resets i) (xs : Vec F S1x1 .f32) : Vec F S1x1 .f32 :=
  VS.read (Elt F) (VS.writes (Elt F) VS.junk (runCarry c i arg2 harg2 arg3 harg3 arg4 harg4 arg5 harg5 arg6 harg6 arg7 harg7 hc x0 x1 x2 x3 xs).2.1)
end Pieces

/-! ## Point by point -/

/-- The two buffers after a point that starts a block row: the run at the point's buffers and blocks. -/
def stepReset (c : Dev nD) (t : Fin cfg0.N) (h : t.val % 8 = 0) : Vec F S1x8x128 .f32 × Vec F S1x1 .f32 :=
  (outReset c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h),
   accReset c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h))
/-- After any other point, the cell having held `xs`. -/
def stepCarry (c : Dev nD) (t : Fin cfg0.N) (h : ¬ t.val % 8 = 0) (xs : Vec F S1x1 .f32) : Vec F S1x8x128 .f32 × Vec F S1x1 .f32 :=
  (outCarry c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h')) xs,
   accCarry c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h')) xs)

/-- THE ACCUMULATION: the result block's buffer and the cell after point `n`, by recursion on the point. -/
def outsAt (c : Dev nD) : (n : ℕ) → n < cfg0.N → Vec F S1x8x128 .f32 × Vec F S1x1 .f32
  | 0, hn => stepReset m c ⟨0, hn⟩ (Nat.zero_mod _)
  | n + 1, hn =>
    if h : (n + 1) % 8 = 0 then stepReset m c ⟨n + 1, hn⟩ h
    else stepCarry m c ⟨n + 1, hn⟩ h (outsAt c n (Nat.lt_of_succ_lt hn)).2

theorem outsAt_reset (c : Dev nD) (t : Fin cfg0.N) (h : t.val % 8 = 0) : outsAt m c t.val t.isLt = stepReset m c t h := by
  obtain ⟨n, hn⟩ := t
  cases n with
  | zero => rfl
  | succ n => exact dif_pos h

theorem outsAt_carry (c : Dev nD) (t : Fin cfg0.N) (h : ¬ t.val % 8 = 0) :
    outsAt m c t.val t.isLt = stepCarry m c t h (outsAt m c (t.val - 1) (Nat.lt_of_le_of_lt (Nat.sub_le _ _) t.isLt)).2 := by
  obtain ⟨n, hn⟩ := t
  cases n with
  | zero => exact absurd (Nat.zero_mod _) h
  | succ n => exact dif_neg h

/-- The region's invariant before point `n`: at the start the cell holds anything; later, what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; each input's buffer keeps its block; the result block's buffer after a point is
    `outsAt`'s; the invariant is `PhiS`; the label table, read by two windows, is held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.KBBody.lean ====
/-
  The body's obligation at every grid point: handed the four input blocks, the result block's buffer and the running
  sum's cell, the body runs to the same with the two written buffers at what the accumulation says.
-/
import proofs.«152664_j24507083391380_1_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live_all w t]

set_option maxHeartbeats 4000000 in
/-- The body at any point: the inputs' buffers hold their blocks; whether the point starts a block row decides which
    run applies; the invariant hands over the cell (at anything where it is about to be zeroed, at the running sum
    otherwise) and takes it back at the new sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0, after1, after2, after3, after4]
  have hN : t.val < 64 := lt_of_lt_of_eq t.isLt (show cfg0.N = 64 from N_0)
  by_cases h0 : t.val % 8 = 0
  · rw [outsAt_reset m c t h0]
    unfold stepReset outReset accReset; (try dsimp only)
    have hpre : (dats m 0 c).Φ t.castSucc ⊢ iprop(iprop((∃ d, owns (c : Thread nD τ) accM fullShare d)) ∗ (∃ r, prngReg c r)) := by
      by_cases hz : t.val = 0
      · rw [PhiS_castSucc m c t, PhiS_zero m c _ _ hz, PhiA_eq]
      · rw [PhiS_castSucc m c t, PhiS_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩⟩
    ihave HΦ' := hpre $$ HΦ
    icases HΦ' with ⟨HS, Hg⟩
    iapply ((runReset c (grid0.coords t) _ _ _ _ _ _ _ _ _ _ _ _ ((resets_iff t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverResetS c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset4 c _ _ _ _ _ _ _ _ _ _ _ _ _ _ _ _ _ _)
  · rw [outsAt_carry m c t h0]
    unfold stepCarry outCarry accCarry; (try dsimp only)
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runCarry c (grid0.coords t) _ _ _ _ _ _ _ _ _ _ _ _ (fun h' => h0 ((resets_iff t).mp h')) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverCarryS c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry4 c _ _ _ _ _ _ _ _ _ _ _ _ _ _ _ _ _ _ _)

/-- The obligation the pipeline's rule asks, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back, the cell's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Hand

end
-- ==== Proof.KBLaunch.lean ====
/-
  The launch: the region run over its 64 points by the pipeline's rule, then the six scalar operations that reduce the
  result array, giving the contents of every buffer the entry point names when it returns.

  The label table is read through two windows, so the pipeline holds it by halves — one half per window — and gives the
  halves back at the end; the other two tables and the result array are held whole.
-/
import proofs.«152664_j24507083391380_1_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP ucRefs)

/-- The tables behind the five windows: the label table (twice), the two prediction tables, the result array. -/
theorem arr_refs : Finset.univ.image (arrRef spec0) = ([main_arg2, main_arg0, main_arg1, main_v0] : List (Ref sig .tc)).toFinset := by decide

section Arrays
variable (c : Dev nD) (A' : (w : Fin cfg0.W) → Buf (Elt F) ((cfg0.win w).arr.view.loc (c : Thread nD τ)))
  (Wv : (b : Ref sig .tc) → Buf (Elt F) ((c : Thread nD τ).loc b)) (hA' : ∀ w, A' w = Wv (arrRef spec0 w))

include hA' in
/-- The pipeline's hold on the windows' tables, window by window: the label table by halves. -/
theorem arrays_chain :
    ((dats m 0 c).arrays A' : sProp 𝕄)
      = iprop((((c : Thread nD τ).loc main_arg2) ↦{fullShare.left} Wv main_arg2) ∗ (((c : Thread nD τ).loc main_arg2) ↦{fullShare.right} Wv main_arg2)
          ∗ (((c : Thread nD τ).loc main_arg0) ↦{fullShare} Wv main_arg0) ∗ (((c : Thread nD τ).loc main_arg1) ↦{fullShare} Wv main_arg1)
          ∗ (((c : Thread nD τ).loc main_v0) ↦{fullShare} Wv main_v0)) := by
  unfold Dat.arrays
  rw [bigSep_W0, hA' 0, hA' 1, hA' 2, hA' 3, hA' 4,
    (arr_whole0 0).set_eq_univ, (arr_whole0 2).set_eq_univ, (arr_whole0 3).set_eq_univ, (arr_whole0 4).set_eq_univ]
  rfl

/-- The same tables, each whole. -/
theorem bufs_chain :
    (arrBufs spec0 c Wv : sProp 𝕄)
      = iprop((((c : Thread nD τ).loc main_arg2) ↦{fullShare} Wv main_arg2)
          ∗ (((c : Thread nD τ).loc main_arg0) ↦{fullShare} Wv main_arg0) ∗ (((c : Thread nD τ).loc main_arg1) ↦{fullShare} Wv main_arg1)
          ∗ (((c : Thread nD τ).loc main_v0) ↦{fullShare} Wv main_v0)) := by
  unfold Pipeline.arrBufs
  exact bigSep_eq_bigSepL_of_eq [main_arg2, main_arg0, main_arg1, main_v0] arr_refs (by decide) _

include hA' in
/-- Whole tables are split among the windows, -/
theorem arrays_of_bufs : (arrBufs spec0 c Wv : sProp 𝕄) ⊢ (dats m 0 c).arrays A' := by
  rw [arrays_chain m c A' Wv hA', bufs_chain c Wv]
  iintro ⟨H2, H0, H1, H4⟩
  ihave H2' := (pointsTo_share (PosShare.mem_left_op_right fullShare)).1 $$ H2
  icases H2' with ⟨H2l, H2r⟩
  isplitl [H2l]; · iexact H2l
  isplitl [H2r]; · iexact H2r
  isplitl [H0]; · iexact H0
  isplitl [H1]; · iexact H1
  iexact H4

include hA' in
/-- and given back whole. -/
theorem bufs_of_arrays : ((dats m 0 c).arrays A' : sProp 𝕄) ⊢ arrBufs spec0 c Wv := by
  rw [arrays_chain m c A' Wv hA', bufs_chain c Wv]
  iintro ⟨H2l, H2r, H0, H1, H4⟩
  isplitl [H2l H2r]
  · iapply (pointsTo_share (PosShare.mem_left_op_right fullShare)).2
    isplitl [H2l]; · iexact H2l
    iexact H2r
  isplitl [H0]; · iexact H0
  isplitl [H1]; · iexact H1
  iexact H4
end Arrays

/-- At entry the windows' tables are what the region finds. -/
theorem hsplit (c : Dev nD) : (arrBufs spec0 c (V m c) : sProp 𝕄) ⊢ (dats m 0 c).arrays ((dats m 0 c).arrAt · 0) :=
  arrays_of_bufs m c _ (V m c) (fun w => A_eq m c w)

/-! ## After the region -/

/-- The result array when the region is left: every block row's write-back done. -/
def outArr (c : Dev nD) : Buf (Elt F) ((cfg0.win 4).arr.view.loc (c : Thread nD τ)) := (dats m 0 c).arrAt 4 cfg0.N

/-- Memory when the region is left: the result array at `R`, every other buffer as the region found it. -/
def Wexit (c : Dev nD) (R : (Proc.devRef (τ := τ) .tc main_v0).ty.Contents (Elt F)) : Valuation τ sig (Elt F) :=
  Function.update (V0 m c) (Proc.devRef .tc main_v0) R

theorem Wexit_ne (c : Dev nD) (R) (b : Ref sig .tc) (h : b ≠ main_v0) : Wexit m c R (Proc.devRef .tc b) = V m c b :=
  Function.update_of_ne (fun e => h (Proc.devRef_injective _ e)) _ _
theorem Wexit_out (c : Dev nD) (R) : Wexit m c R (Proc.devRef .tc main_v0) = R := Function.update_self _ _ _

/-- Memory when the entry point returns: the six scalar operations applied. -/
def Wend (c : Dev nD) : Valuation τ sig (Elt F) := StableHlo.after hostOps1 (Wexit m c (outArr m c))

theorem tail_sub : ∀ ops ∈ ([hostOps1] : List (List (HloOp τ sig (Elt F)))), ∀ op ∈ ops, op.bufs ⊆ ucRefs τ sig := by
  intro ops hops op hop
  simp only [List.mem_cons, List.mem_nil_iff, _root_.or_false] at hops
  rcases hops with rfl
  exact Pipeline.sub_ucRefs op ((List.forall_iff_forall_mem.mp hostOps1_sub) op hop)
theorem tail_fresh' : ∀ ops ∈ ([hostOps1] : List (List (HloOp τ sig (Elt F)))), ∀ op ∈ ops, op.fresh = ∅ := by
  intro ops hops op hop
  simp only [List.mem_cons, List.mem_nil_iff, _root_.or_false] at hops
  rcases hops with rfl
  exact (List.forall_iff_forall_mem.mp tail_fresh) op hop

/-- The scalar operations write none of the windows' tables. -/
theorem tail_keeps (b : Ref sig .tc) (hb : b = main_arg0 ∨ b = main_arg1 ∨ b = main_arg2 ∨ b = main_v0) :
    ∀ op ∈ (hostOps1 : List (HloOp τ sig (Elt F))), Proc.devRef .tc b ∉ op.writes := by
  intro op hop
  simp only [hostOps1, List.mem_cons, List.mem_nil_iff, _root_.or_false] at hop
  rcases hb with rfl | rfl | rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem arr_cases : ∀ w : Fin cfg0.W, arrRef spec0 w = main_arg0 ∨ arrRef spec0 w = main_arg1 ∨ arrRef spec0 w = main_arg2 ∨ arrRef spec0 w = main_v0 := by decide

theorem exit_arr (c : Dev nD) : ∀ w : Fin cfg0.W,
    (dats m 0 c).arrAt w cfg0.N = Wexit m c (outArr m c) (Proc.devRef .tc (arrRef spec0 w))
  | ⟨0, _⟩ => ((dats m 0 c).arrAt_in 0 rfl _).trans ((A_eq m c 0).trans (Wexit_ne m c _ main_arg2 (by decide)).symm)
  | ⟨1, _⟩ => ((dats m 0 c).arrAt_in 1 rfl _).trans ((A_eq m c 1).trans (Wexit_ne m c _ main_arg2 (by decide)).symm)
  | ⟨2, _⟩ => ((dats m 0 c).arrAt_in 2 rfl _).trans ((A_eq m c 2).trans (Wexit_ne m c _ main_arg0 (by decide)).symm)
  | ⟨3, _⟩ => ((dats m 0 c).arrAt_in 3 rfl _).trans ((A_eq m c 3).trans (Wexit_ne m c _ main_arg1 (by decide)).symm)
  | ⟨4, _⟩ => (Wexit_out m c _).symm
  | ⟨_ + 5, h⟩ => absurd h (Nat.not_lt.2 (Nat.le_add_left _ _))

theorem end_arr (c : Dev nD) (w : Fin cfg0.W) :
    (dats m 0 c).arrAt w cfg0.N = Wend m c (Proc.devRef .tc (arrRef spec0 w)) := by
  unfold Wend
  rw [StableHlo.after_of_forall_not_mem _ _ (tail_keeps (arrRef spec0 w) (arr_cases w))]
  exact exit_arr m c w

/-- What the region leaves is the unscoped memory at the exit contents, -/
theorem exit_held (c : Dev nD) :
    iprop((dats m 0 c).arrays ((dats m 0 c).arrAt · cfg0.N) ∗ unscopedRest spec0 c (V m c))
      ⊢ (StableHlo.held (c : Thread nD τ) (ucRefs τ sig) (Wexit m c (outArr m c)) : sProp 𝕄) := by
  rw [← Pipeline.unscopedBufs_held c (Wexit m c (outArr m c)), Pipeline.unscopedBufs_split₀ cfgs 0 winFacts₀0.arr_unscoped c _]
  refine sep_mono (bufs_of_arrays m c _ _ (exit_arr m c)) (Entails.of_eq ?_)
  rw [unscopedRest0_eq, unscopedRest0_eq, Wexit_ne m c _ main_cst (by decide), Wexit_ne m c _ main_v1 (by decide), Wexit_ne m c _ main_cst_0 (by decide),
    Wexit_ne m c _ main_v2 (by decide), Wexit_ne m c _ main_cst_1 (by decide), Wexit_ne m c _ main_v3 (by decide)]

/-- and the unscoped memory at the return contents is the windows' tables, untouched, and the rest. -/
theorem end_split (c : Dev nD) :
    (StableHlo.held (c : Thread nD τ) (ucRefs τ sig) (Wend m c) : sProp 𝕄)
      ⊢ iprop((dats m 0 c).arrays ((dats m 0 c).arrAt · cfg0.N) ∗ unscopedRest spec0 c (fun b => Wend m c (Proc.devRef .tc b))) := by
  rw [← Pipeline.unscopedBufs_held c (Wend m c), Pipeline.unscopedBufs_split₀ cfgs 0 winFacts₀0.arr_unscoped c _]
  exact sep_mono (arrays_of_bufs m c _ _ (end_arr m c)) .rfl

/-! ## The run -/

section Run
local notation "𝔻" => Pipeline.defs (fun q => Pipeline.Cfg.toPCfg (Val := Elt F) (cfgs q)) (defs₀ (F := F))
local notation "𝕍" => Variants.lift Variants.none

set_option backward.isDefEq.respectTransparency.types false in
/-- The scalar operations after the region: from the exit contents they run to the return contents, the windows' tables
    handed on untouched. -/
theorem tail_run (c : Dev nD) (Q' : PUnit → sProp 𝕄) :
    iprop((iprop((dats m 0 c).arrays ((dats m 0 c).arrAt · cfg0.N)
              ∗ unscopedRestP Pipeline.Prefetch.none spec0 c (fun b => Wend m c (Proc.devRef .tc b))) -∗ Q' ⟨⟩)
        ∗ boundary (c : Thread nD τ) ∗ (dats m 0 c).arrays ((dats m 0 c).arrAt · cfg0.N)
        ∗ unscopedRestP Pipeline.Prefetch.none spec0 c (V m c))
      ⊢ wp frame (wpE 𝔻 𝕍 (c : Thread nD τ) none) Set.univ (Pipeline.chain ([hostOps1].map StableHlo.seq)) Q' := by
  rw [Pipeline.unscopedRestP_none, Pipeline.unscopedRestP_none, ← List.append_nil ([hostOps1].map StableHlo.seq)]
  iintro ⟨Hk, Hb, Ha, Hr⟩
  ihave Hh := (exit_held m c) $$ [Ha Hr]
  · isplitl [Ha] <;> iassumption
  iapply (Pipeline.wp_seqs_then (fun q => Pipeline.Cfg.toPCfg (Val := Elt F) (cfgs q)) defs₀ Variants.none c (ucRefs τ sig) [] [hostOps1] tail_sub tail_fresh' (Wexit m c (outArr m c))) $$ [Hb Hh]
  · isplitl [Hb] <;> iassumption
  iintro ⟨Hb, Hh⟩
  rw [Pipeline.chain_nil, wp_pure]
  imodintro
  iapply Hk
  iapply (end_split m c)
  rw [show StableHlo.after ([hostOps1] : List (List (HloOp τ sig (Elt F)))).flatten (Wexit m c (outArr m c)) = Wend m c from by
    rw [List.flatten_cons, List.flatten_nil, List.append_nil]; rfl]
  iexact Hh

set_option backward.isDefEq.respectTransparency.types false in
/-- From any memory with zero counters every weakly fair execution of the entry point ends, and the final memory holds
    the result at the return contents and the three argument tables as they were. -/
theorem run_main : θ_run defs (onTc (τ := τ) (main (F := F))) (s₀ m ρ) (fun r => ∀ c : Dev nD,
      r.2.mem ((c.tc : Thread nD τ).loc main_v3) = Wend m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => Pipeline.Cfg.toPCfg (Val := Elt F) (cfgs q)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := tail_run m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => ⟨(h c).2.2 main_v3 (by decide),
      ((h c).1 2).trans (((dats m 0 c).arrAt_in 2 rfl _).trans ((A_eq m c 2).trans (V_arg0 m c))),
      ((h c).1 3).trans (((dats m 0 c).arrAt_in 3 rfl _).trans ((A_eq m c 3).trans (V_arg1 m c))),
      ((h c).1 0).trans (((dats m 0 c).arrAt_in 0 rfl _).trans ((A_eq m c 0).trans (V_arg2 m c)))⟩)

/-- The frame: the entry point runs to the end and the three argument tables end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)
end Run

end Cert.Kernel.Hand

end
-- ==== Proof.KIKit.lean ====
/-
  The pipeline's bookkeeping for the one kernel region: what the region finds in memory, the blocks of the four input
  windows at a grid point, when the accumulator is reset, and the shape of the region's invariant.

  The grid is 8 × 8, point `t` being block row `t / 8` and block column `t % 8`. Windows 0 and 1 both read the label
  table (rows of block `t / 8`, respectively of block `t % 8`), windows 2 and 3 the two prediction tables at block
  `(t / 8, t % 8)`, window 4 is the 1 × 8 × 128 result block of row `t / 8`; a 1 × 1 scratch carries the row's running sum.
-/
import proofs.«152664_j24507083391380_1_alg».proof.Proof.Gen.KernelIdeal.Launch
import proofs.«152664_j24507083391380_1_alg».proof.Proof.Gen.KernelIdeal.Skeleton
import proofs.«152664_j24507083391380_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory as the region finds it -/

/-- No host operation precedes the region: the region finds the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

theorem tail_fresh : (hostOps1 : List (HloOp τ sig (Elt F))).Forall fun op => op.fresh = ∅ := by
  simp only [List.Forall]; repeat' constructor

/-- The entry point is the region followed by the six scalar operations that reduce its result. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl

/-! ## The windows' blocks -/

/-- Window `w`'s block of its table at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the block was just fetched or is the one kept
    from the point before (the block index has then not moved). -/
theorem before_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The accumulator's reset -/

/-- The body's one branch: taken where the block column is 0. -/
abbrev resets (i : grid0.Coords) : Prop := (Scalar.cmpi .ne (Scalar.extui (Scalar.cmpi .eq (BitVec.ofNat 32 (i 1).val) 0#32)) 0#32) = 1#1
theorem resets_iff : ∀ t : Fin cfg0.N, resets (grid0.coords t) ↔ t.val % 8 = 0 :=
  (by decide +kernel : ∀ t : Fin grid0.N, resets (grid0.coords t) ↔ t.val % 8 = 0)

/-- No window is ever idle. -/
theorem live_all : ∀ (w : Fin cfg0.W) (t : Fin cfg0.N), cfg0.idle w (grid0.coords t) = false := by decide +kernel

/-! ## The staging buffers at a point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The running sum's cell. -/
abbrev accM : Memref sig .tc .vmem S1x1 .f32 := Memref.whole cc0_scratch0

/-- What the region may use besides its windows: the running sum's cell at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KIRunCarry.lean ====
/-
  The kernel body run once, symbolically, where the accumulator is carried.
-/
import proofs.«152664_j24507083391380_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point inside a block row (block column not 0): the running sum `xs` the point before left in the cell
    gets the block's two loss sums added, and the result block is written from the cell. The lists are the stores each of
    the two buffers ends with, last first: what the symbolic run of the body finds. -/
noncomputable def runCarry (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole) (hc : ¬ resets i)
    (x0 x1 : Vec F S512x128 .f32) (x2 x3 : Vec F S512x512 .f32) (xs : Vec F S1x1 .f32) :
    Σ' (L4 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg7.eq_unread hf7
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Hand

end
-- ==== Proof.KIRunReset.lean ====
/-
  The kernel body run once, symbolically, where the accumulator is reset.
-/
import proofs.«152664_j24507083391380_1_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that starts a block row (block column 0): the running sum's cell, whatever it held, is zeroed, the
    block's two loss sums are added, and the result block is written from the cell. The lists are the stores each of the
    two buffers ends with, last first: what the symbolic run of the body finds. -/
noncomputable def runReset (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole) (hc : resets i)
    (x0 x1 : Vec F S512x128 .f32) (x2 x3 : Vec F S512x512 .f32) :
    Σ' (L4 : List (View.Piece (Elt F) S1x8x128 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Hand

end
-- ==== Proof.KIData.lean ====
/-
  What the result block's buffer and the running sum's cell hold after each grid point, the pipeline's proof data built
  from that, and the body's obligation at every point.

  At a point that starts a block row the cell is zeroed and the block's two loss sums are added; at any other point the
  sums are added to what the point before left; either way the result block's buffer is then written from the cell. The
  buffer is written back to the result array only at the last point of a block row, so the array ends holding, per block
  row, the row's complete sum.
-/
import proofs.«152664_j24507083391380_1_alg».proof.Proof.KIRunCarry
import proofs.«152664_j24507083391380_1_alg».proof.Proof.KIRunReset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the two written buffers' contents are stated (any whole buffer of the shape does). -/
abbrev VO : View sig .tc .vmem S1x8x128 .f32 := (Memref.whole cc0_stg4_0 : Memref sig .tc .vmem S1x8x128 .f32).view
abbrev VS : View sig .tc .vmem S1x1 .f32 := accM.view

section Pieces
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole)
  (x0 x1 : Vec F S512x128 .f32) (x2 x3 : Vec F S512x512 .f32)

/-- After a resetting run the stores into the result block's buffer cover it, -/
theorem coverReset4 (hc : resets i) (y : S1x8x128.Idx) :
    ∃ pc ∈ (runReset c i arg2 harg2 arg3 harg3 arg4 harg4 arg5 harg5 arg6 harg6 arg7 harg7 hc x0 x1 x2 x3).1, y ∈ pc.1.set :=
  View.cover_of_tiledL (runReset c i arg2 harg2 arg3 harg3 arg4 harg4 arg5 harg5 arg6 harg6 arg7 harg7 hc x0 x1 x2 x3).1 S1x8x128.size (by sl_kernel_rfl) y
/-- and so do the stores into the cell. -/
theorem coverResetS (hc : resets i) (y : S1x1.Idx) :
    ∃ pc ∈ (runReset c i arg2 harg2 arg3 harg3 arg4 harg4 arg5 harg5 arg6 harg6 arg7 harg7 hc x0 x1 x2 x3).2.1, y ∈ pc.1.set :=
  View.cover_of_tiledL (runReset c i arg2 harg2 arg3 harg3 arg4 harg4 arg5 harg5 arg6 harg6 arg7 harg7 hc x0 x1 x2 x3).2.1 S1x1.size (by sl_kernel_rfl) y
/-- What a resetting run leaves in the result block's buffer, -/
def outReset (hc : resets i) : Vec F S1x8x128 .f32 :=
  VO.read (Elt F) (VO.writes (Elt F) VO.junk (runReset c i arg2 harg2 arg3 harg3 arg4 harg4 arg5 harg5 arg6 harg6 arg7 harg7 hc x0 x1 x2 x3).1)
/-- and in the cell. -/
def accReset (hc : resets i) : Vec F S1x1 .f32 :=
  VS.read (Elt F) (VS.writes (Elt F) VS.junk (runReset c i arg2 harg2 arg3 harg3 arg4 harg4 arg5 harg5 arg6 harg6 arg7 harg7 hc x0 x1 x2 x3).2.1)

theorem coverCarry4 (hc : ¬ resets i) (xs : Vec F S1x1 .f32) (y : S1x8x128.Idx) :
    ∃ pc ∈ (runCarry c i arg2 harg2 arg3 harg3 arg4 harg4 arg5 harg5 arg6 harg6 arg7 harg7 hc x0 x1 x2 x3 xs).1, y ∈ pc.1.set :=
  View.cover_of_tiledL (runCarry c i arg2 harg2 arg3 harg3 arg4 harg4 arg5 harg5 arg6 harg6 arg7 harg7 hc x0 x1 x2 x3 xs).1 S1x8x128.size (by sl_kernel_rfl) y
theorem coverCarryS (hc : ¬ resets i) (xs : Vec F S1x1 .f32) (y : S1x1.Idx) :
    ∃ pc ∈ (runCarry c i arg2 harg2 arg3 harg3 arg4 harg4 arg5 harg5 arg6 harg6 arg7 harg7 hc x0 x1 x2 x3 xs).2.1, y ∈ pc.1.set :=
  View.cover_of_tiledL (runCarry c i arg2 harg2 arg3 harg3 arg4 harg4 arg5 harg5 arg6 harg6 arg7 harg7 hc x0 x1 x2 x3 xs).2.1 S1x1.size (by sl_kernel_rfl) y
/-- What a carrying run leaves in the result block's buffer and in the cell, the cell having held `xs`. -/
def outCarry (hc : ¬ resets i) (xs : Vec F S1x1 .f32) : Vec F S1x8x128 .f32 :=
  VO.read (Elt F) (VO.writes (Elt F) VO.junk (runCarry c i arg2 harg2 arg3 harg3 arg4 harg4 arg5 harg5 arg6 harg6 arg7 harg7 hc x0 x1 x2 x3 xs).1)
def accCarry (hc : ¬ resets i) (xs : Vec F S1x1 .f32) : Vec F S1x1 .f32 :=
  VS.read (Elt F) (VS.writes (Elt F) VS.junk (runCarry c i arg2 harg2 arg3 harg3 arg4 harg4 arg5 harg5 arg6 harg6 arg7 harg7 hc x0 x1 x2 x3 xs).2.1)
end Pieces

/-! ## Point by point -/

/-- The two buffers after a point that starts a block row: the run at the point's buffers and blocks. -/
def stepReset (c : Dev nD) (t : Fin cfg0.N) (h : t.val % 8 = 0) : Vec F S1x8x128 .f32 × Vec F S1x1 .f32 :=
  (outReset c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h),
   accReset c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h))
/-- After any other point, the cell having held `xs`. -/
def stepCarry (c : Dev nD) (t : Fin cfg0.N) (h : ¬ t.val % 8 = 0) (xs : Vec F S1x1 .f32) : Vec F S1x8x128 .f32 × Vec F S1x1 .f32 :=
  (outCarry c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h')) xs,
   accCarry c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h')) xs)

/-- THE ACCUMULATION: the result block's buffer and the cell after point `n`, by recursion on the point. -/
def outsAt (c : Dev nD) : (n : ℕ) → n < cfg0.N → Vec F S1x8x128 .f32 × Vec F S1x1 .f32
  | 0, hn => stepReset m c ⟨0, hn⟩ (Nat.zero_mod _)
  | n + 1, hn =>
    if h : (n + 1) % 8 = 0 then stepReset m c ⟨n + 1, hn⟩ h
    else stepCarry m c ⟨n + 1, hn⟩ h (outsAt c n (Nat.lt_of_succ_lt hn)).2

theorem outsAt_reset (c : Dev nD) (t : Fin cfg0.N) (h : t.val % 8 = 0) : outsAt m c t.val t.isLt = stepReset m c t h := by
  obtain ⟨n, hn⟩ := t
  cases n with
  | zero => rfl
  | succ n => exact dif_pos h

theorem outsAt_carry (c : Dev nD) (t : Fin cfg0.N) (h : ¬ t.val % 8 = 0) :
    outsAt m c t.val t.isLt = stepCarry m c t h (outsAt m c (t.val - 1) (Nat.lt_of_le_of_lt (Nat.sub_le _ _) t.isLt)).2 := by
  obtain ⟨n, hn⟩ := t
  cases n with
  | zero => exact absurd (Nat.zero_mod _) h
  | succ n => exact dif_neg h

/-- The region's invariant before point `n`: at the start the cell holds anything; later, what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; each input's buffer keeps its block; the result block's buffer after a point is
    `outsAt`'s; the invariant is `PhiS`; the label table, read by two windows, is held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KIBody.lean ====
/-
  The body's obligation at every grid point: handed the four input blocks, the result block's buffer and the running
  sum's cell, the body runs to the same with the two written buffers at what the accumulation says.
-/
import proofs.«152664_j24507083391380_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live_all w t]

set_option maxHeartbeats 4000000 in
/-- The body at any point: the inputs' buffers hold their blocks; whether the point starts a block row decides which
    run applies; the invariant hands over the cell (at anything where it is about to be zeroed, at the running sum
    otherwise) and takes it back at the new sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_eq m c 0 t, leaves_eq m c 1 t, leaves_eq m c 2 t, leaves_eq m c 3 t, leaves_eq m c 4 t,
    after0, after1, after2, after3, after4]
  have hN : t.val < 64 := lt_of_lt_of_eq t.isLt (show cfg0.N = 64 from N_0)
  by_cases h0 : t.val % 8 = 0
  · rw [outsAt_reset m c t h0]
    unfold stepReset outReset accReset; (try dsimp only)
    have hpre : (dats m 0 c).Φ t.castSucc ⊢ iprop(iprop((∃ d, owns (c : Thread nD τ) accM fullShare d)) ∗ (∃ r, prngReg c r)) := by
      by_cases hz : t.val = 0
      · rw [PhiS_castSucc m c t, PhiS_zero m c _ _ hz, PhiA_eq]
      · rw [PhiS_castSucc m c t, PhiS_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩⟩
    ihave HΦ' := hpre $$ HΦ
    icases HΦ' with ⟨HS, Hg⟩
    iapply ((runReset c (grid0.coords t) _ _ _ _ _ _ _ _ _ _ _ _ ((resets_iff t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverResetS c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset4 c _ _ _ _ _ _ _ _ _ _ _ _ _ _ _ _ _ _)
  · rw [outsAt_carry m c t h0]
    unfold stepCarry outCarry accCarry; (try dsimp only)
    have hz : t.val ≠ 0 := fun e => h0 (by rw [e])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runCarry c (grid0.coords t) _ _ _ _ _ _ _ _ _ _ _ _ (fun h' => h0 ((resets_iff t).mp h')) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverCarryS c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry4 c _ _ _ _ _ _ _ _ _ _ _ _ _ _ _ _ _ _ _)

/-- The obligation the pipeline's rule asks, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back, the cell's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Hand

end
-- ==== Proof.KILaunch.lean ====
/-
  The launch: the region run over its 64 points by the pipeline's rule, then the six scalar operations that reduce the
  result array, giving the contents of every buffer the entry point names when it returns.

  The label table is read through two windows, so the pipeline holds it by halves — one half per window — and gives the
  halves back at the end; the other two tables and the result array are held whole.
-/
import proofs.«152664_j24507083391380_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrRef arrBufs unscopedRest unscopedRestP ucRefs)

/-- The tables behind the five windows: the label table (twice), the two prediction tables, the result array. -/
theorem arr_refs : Finset.univ.image (arrRef spec0) = ([main_arg2, main_arg0, main_arg1, main_v0] : List (Ref sig .tc)).toFinset := by decide

section Arrays
variable (c : Dev nD) (A' : (w : Fin cfg0.W) → Buf (Elt F) ((cfg0.win w).arr.view.loc (c : Thread nD τ)))
  (Wv : (b : Ref sig .tc) → Buf (Elt F) ((c : Thread nD τ).loc b)) (hA' : ∀ w, A' w = Wv (arrRef spec0 w))

include hA' in
/-- The pipeline's hold on the windows' tables, window by window: the label table by halves. -/
theorem arrays_chain :
    ((dats m 0 c).arrays A' : sProp 𝕄)
      = iprop((((c : Thread nD τ).loc main_arg2) ↦{fullShare.left} Wv main_arg2) ∗ (((c : Thread nD τ).loc main_arg2) ↦{fullShare.right} Wv main_arg2)
          ∗ (((c : Thread nD τ).loc main_arg0) ↦{fullShare} Wv main_arg0) ∗ (((c : Thread nD τ).loc main_arg1) ↦{fullShare} Wv main_arg1)
          ∗ (((c : Thread nD τ).loc main_v0) ↦{fullShare} Wv main_v0)) := by
  unfold Dat.arrays
  rw [bigSep_W0, hA' 0, hA' 1, hA' 2, hA' 3, hA' 4,
    (arr_whole0 0).set_eq_univ, (arr_whole0 2).set_eq_univ, (arr_whole0 3).set_eq_univ, (arr_whole0 4).set_eq_univ]
  rfl

/-- The same tables, each whole. -/
theorem bufs_chain :
    (arrBufs spec0 c Wv : sProp 𝕄)
      = iprop((((c : Thread nD τ).loc main_arg2) ↦{fullShare} Wv main_arg2)
          ∗ (((c : Thread nD τ).loc main_arg0) ↦{fullShare} Wv main_arg0) ∗ (((c : Thread nD τ).loc main_arg1) ↦{fullShare} Wv main_arg1)
          ∗ (((c : Thread nD τ).loc main_v0) ↦{fullShare} Wv main_v0)) := by
  unfold Pipeline.arrBufs
  exact bigSep_eq_bigSepL_of_eq [main_arg2, main_arg0, main_arg1, main_v0] arr_refs (by decide) _

include hA' in
/-- Whole tables are split among the windows, -/
theorem arrays_of_bufs : (arrBufs spec0 c Wv : sProp 𝕄) ⊢ (dats m 0 c).arrays A' := by
  rw [arrays_chain m c A' Wv hA', bufs_chain c Wv]
  iintro ⟨H2, H0, H1, H4⟩
  ihave H2' := (pointsTo_share (PosShare.mem_left_op_right fullShare)).1 $$ H2
  icases H2' with ⟨H2l, H2r⟩
  isplitl [H2l]; · iexact H2l
  isplitl [H2r]; · iexact H2r
  isplitl [H0]; · iexact H0
  isplitl [H1]; · iexact H1
  iexact H4

include hA' in
/-- and given back whole. -/
theorem bufs_of_arrays : ((dats m 0 c).arrays A' : sProp 𝕄) ⊢ arrBufs spec0 c Wv := by
  rw [arrays_chain m c A' Wv hA', bufs_chain c Wv]
  iintro ⟨H2l, H2r, H0, H1, H4⟩
  isplitl [H2l H2r]
  · iapply (pointsTo_share (PosShare.mem_left_op_right fullShare)).2
    isplitl [H2l]; · iexact H2l
    iexact H2r
  isplitl [H0]; · iexact H0
  isplitl [H1]; · iexact H1
  iexact H4
end Arrays

/-- At entry the windows' tables are what the region finds. -/
theorem hsplit (c : Dev nD) : (arrBufs spec0 c (V m c) : sProp 𝕄) ⊢ (dats m 0 c).arrays ((dats m 0 c).arrAt · 0) :=
  arrays_of_bufs m c _ (V m c) (fun w => A_eq m c w)

/-! ## After the region -/

/-- The result array when the region is left: every block row's write-back done. -/
def outArr (c : Dev nD) : Buf (Elt F) ((cfg0.win 4).arr.view.loc (c : Thread nD τ)) := (dats m 0 c).arrAt 4 cfg0.N

/-- Memory when the region is left: the result array at `R`, every other buffer as the region found it. -/
def Wexit (c : Dev nD) (R : (Proc.devRef (τ := τ) .tc main_v0).ty.Contents (Elt F)) : Valuation τ sig (Elt F) :=
  Function.update (V0 m c) (Proc.devRef .tc main_v0) R

theorem Wexit_ne (c : Dev nD) (R) (b : Ref sig .tc) (h : b ≠ main_v0) : Wexit m c R (Proc.devRef .tc b) = V m c b :=
  Function.update_of_ne (fun e => h (Proc.devRef_injective _ e)) _ _
theorem Wexit_out (c : Dev nD) (R) : Wexit m c R (Proc.devRef .tc main_v0) = R := Function.update_self _ _ _

/-- Memory when the entry point returns: the six scalar operations applied. -/
def Wend (c : Dev nD) : Valuation τ sig (Elt F) := StableHlo.after hostOps1 (Wexit m c (outArr m c))

theorem tail_sub : ∀ ops ∈ ([hostOps1] : List (List (HloOp τ sig (Elt F)))), ∀ op ∈ ops, op.bufs ⊆ ucRefs τ sig := by
  intro ops hops op hop
  simp only [List.mem_cons, List.mem_nil_iff, _root_.or_false] at hops
  rcases hops with rfl
  exact Pipeline.sub_ucRefs op ((List.forall_iff_forall_mem.mp hostOps1_sub) op hop)
theorem tail_fresh' : ∀ ops ∈ ([hostOps1] : List (List (HloOp τ sig (Elt F)))), ∀ op ∈ ops, op.fresh = ∅ := by
  intro ops hops op hop
  simp only [List.mem_cons, List.mem_nil_iff, _root_.or_false] at hops
  rcases hops with rfl
  exact (List.forall_iff_forall_mem.mp tail_fresh) op hop

/-- The scalar operations write none of the windows' tables. -/
theorem tail_keeps (b : Ref sig .tc) (hb : b = main_arg0 ∨ b = main_arg1 ∨ b = main_arg2 ∨ b = main_v0) :
    ∀ op ∈ (hostOps1 : List (HloOp τ sig (Elt F))), Proc.devRef .tc b ∉ op.writes := by
  intro op hop
  simp only [hostOps1, List.mem_cons, List.mem_nil_iff, _root_.or_false] at hop
  rcases hb with rfl | rfl | rfl | rfl <;> rcases hop with rfl | rfl | rfl | rfl | rfl | rfl <;>
    simp only [StableHlo.nullary_writes, StableHlo.unary_writes, StableHlo.binary_writes, Finset.mem_singleton] <;>
    exact StableHlo.devRef_ne_of_ne (by decide)

theorem arr_cases : ∀ w : Fin cfg0.W, arrRef spec0 w = main_arg0 ∨ arrRef spec0 w = main_arg1 ∨ arrRef spec0 w = main_arg2 ∨ arrRef spec0 w = main_v0 := by decide

theorem exit_arr (c : Dev nD) : ∀ w : Fin cfg0.W,
    (dats m 0 c).arrAt w cfg0.N = Wexit m c (outArr m c) (Proc.devRef .tc (arrRef spec0 w))
  | ⟨0, _⟩ => ((dats m 0 c).arrAt_in 0 rfl _).trans ((A_eq m c 0).trans (Wexit_ne m c _ main_arg2 (by decide)).symm)
  | ⟨1, _⟩ => ((dats m 0 c).arrAt_in 1 rfl _).trans ((A_eq m c 1).trans (Wexit_ne m c _ main_arg2 (by decide)).symm)
  | ⟨2, _⟩ => ((dats m 0 c).arrAt_in 2 rfl _).trans ((A_eq m c 2).trans (Wexit_ne m c _ main_arg0 (by decide)).symm)
  | ⟨3, _⟩ => ((dats m 0 c).arrAt_in 3 rfl _).trans ((A_eq m c 3).trans (Wexit_ne m c _ main_arg1 (by decide)).symm)
  | ⟨4, _⟩ => (Wexit_out m c _).symm
  | ⟨_ + 5, h⟩ => absurd h (Nat.not_lt.2 (Nat.le_add_left _ _))

theorem end_arr (c : Dev nD) (w : Fin cfg0.W) :
    (dats m 0 c).arrAt w cfg0.N = Wend m c (Proc.devRef .tc (arrRef spec0 w)) := by
  unfold Wend
  rw [StableHlo.after_of_forall_not_mem _ _ (tail_keeps (arrRef spec0 w) (arr_cases w))]
  exact exit_arr m c w

/-- What the region leaves is the unscoped memory at the exit contents, -/
theorem exit_held (c : Dev nD) :
    iprop((dats m 0 c).arrays ((dats m 0 c).arrAt · cfg0.N) ∗ unscopedRest spec0 c (V m c))
      ⊢ (StableHlo.held (c : Thread nD τ) (ucRefs τ sig) (Wexit m c (outArr m c)) : sProp 𝕄) := by
  rw [← Pipeline.unscopedBufs_held c (Wexit m c (outArr m c)), Pipeline.unscopedBufs_split₀ cfgs 0 winFacts₀0.arr_unscoped c _]
  refine sep_mono (bufs_of_arrays m c _ _ (exit_arr m c)) (Entails.of_eq ?_)
  rw [unscopedRest0_eq, unscopedRest0_eq, Wexit_ne m c _ main_cst (by decide), Wexit_ne m c _ main_v1 (by decide), Wexit_ne m c _ main_cst_0 (by decide),
    Wexit_ne m c _ main_v2 (by decide), Wexit_ne m c _ main_cst_1 (by decide), Wexit_ne m c _ main_v3 (by decide)]

/-- and the unscoped memory at the return contents is the windows' tables, untouched, and the rest. -/
theorem end_split (c : Dev nD) :
    (StableHlo.held (c : Thread nD τ) (ucRefs τ sig) (Wend m c) : sProp 𝕄)
      ⊢ iprop((dats m 0 c).arrays ((dats m 0 c).arrAt · cfg0.N) ∗ unscopedRest spec0 c (fun b => Wend m c (Proc.devRef .tc b))) := by
  rw [← Pipeline.unscopedBufs_held c (Wend m c), Pipeline.unscopedBufs_split₀ cfgs 0 winFacts₀0.arr_unscoped c _]
  exact sep_mono (arrays_of_bufs m c _ _ (end_arr m c)) .rfl

/-! ## The run -/

section Run
local notation "𝔻" => Pipeline.defs (fun q => Pipeline.Cfg.toPCfg (Val := Elt F) (cfgs q)) (defs₀ (F := F))
local notation "𝕍" => Variants.lift Variants.none

set_option backward.isDefEq.respectTransparency.types false in
/-- The scalar operations after the region: from the exit contents they run to the return contents, the windows' tables
    handed on untouched. -/
theorem tail_run (c : Dev nD) (Q' : PUnit → sProp 𝕄) :
    iprop((iprop((dats m 0 c).arrays ((dats m 0 c).arrAt · cfg0.N)
              ∗ unscopedRestP Pipeline.Prefetch.none spec0 c (fun b => Wend m c (Proc.devRef .tc b))) -∗ Q' ⟨⟩)
        ∗ boundary (c : Thread nD τ) ∗ (dats m 0 c).arrays ((dats m 0 c).arrAt · cfg0.N)
        ∗ unscopedRestP Pipeline.Prefetch.none spec0 c (V m c))
      ⊢ wp frame (wpE 𝔻 𝕍 (c : Thread nD τ) none) Set.univ (Pipeline.chain ([hostOps1].map StableHlo.seq)) Q' := by
  rw [Pipeline.unscopedRestP_none, Pipeline.unscopedRestP_none, ← List.append_nil ([hostOps1].map StableHlo.seq)]
  iintro ⟨Hk, Hb, Ha, Hr⟩
  ihave Hh := (exit_held m c) $$ [Ha Hr]
  · isplitl [Ha] <;> iassumption
  iapply (Pipeline.wp_seqs_then (fun q => Pipeline.Cfg.toPCfg (Val := Elt F) (cfgs q)) defs₀ Variants.none c (ucRefs τ sig) [] [hostOps1] tail_sub tail_fresh' (Wexit m c (outArr m c))) $$ [Hb Hh]
  · isplitl [Hb] <;> iassumption
  iintro ⟨Hb, Hh⟩
  rw [Pipeline.chain_nil, wp_pure]
  imodintro
  iapply Hk
  iapply (end_split m c)
  rw [show StableHlo.after ([hostOps1] : List (List (HloOp τ sig (Elt F)))).flatten (Wexit m c (outArr m c)) = Wend m c from by
    rw [List.flatten_cons, List.flatten_nil, List.append_nil]; rfl]
  iexact Hh

set_option backward.isDefEq.respectTransparency.types false in
/-- From any memory with zero counters every weakly fair execution of the entry point ends, and the final memory holds
    the result at the return contents and the three argument tables as they were. -/
theorem run_main : θ_run defs (onTc (τ := τ) (main (F := F))) (s₀ m ρ) (fun r => ∀ c : Dev nD,
      r.2.mem ((c.tc : Thread nD τ).loc main_v3) = Wend m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => Pipeline.Cfg.toPCfg (Val := Elt F) (cfgs q)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := tail_run m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => ⟨(h c).2.2 main_v3 (by decide),
      ((h c).1 2).trans (((dats m 0 c).arrAt_in 2 rfl _).trans ((A_eq m c 2).trans (V_arg0 m c))),
      ((h c).1 3).trans (((dats m 0 c).arrAt_in 3 rfl _).trans ((A_eq m c 3).trans (V_arg1 m c))),
      ((h c).1 0).trans (((dats m 0 c).arrAt_in 0 rfl _).trans ((A_eq m c 0).trans (V_arg2 m c)))⟩)

/-- The frame: the entry point runs to the end and the three argument tables end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)
end Run

end Cert.KernelIdeal.Hand

end
-- ==== Proof.KIPieces.lean ====
/-
  What the two written buffers hold after one run of the body, as the body's own arithmetic: the cell ends at the running
  sum plus the block's two loss sums (the running sum being zero where the block row starts), and the result block is
  that sum at its corner and zero elsewhere.
-/
import proofs.«152664_j24507083391380_1_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by funext a; fin_cases a <;> rfl
theorem zeros3 : (![0, 0, 0] : Fin 3 → Nat) = fun _ => 0 := by funext a; fin_cases a <;> rfl

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole)
  (x0 x1 : Vec F S512x128 .f32) (x2 x3 : Vec F S512x512 .f32)

/-- Inside a block row: the cell holds the sum it held plus the block's sums. -/
theorem accCarry_eq (hc : ¬ resets i) (xs : Vec F S1x1 .f32) :
    accCarry c i arg2 harg2 arg3 harg3 arg4 harg4 arg5 harg5 arg6 harg6 arg7 harg7 x0 x1 x2 x3 hc xs = k0_pay4 (k0_pay2 x0 x1) (k0_pay3 x0 x1 x2) x3 xs := by
  unfold accCarry
  rw [View.read_writes_eq_canon _ _ _ (coverCarryS c i arg2 harg2 arg3 harg3 arg4 harg4 arg5 harg5 arg6 harg6 arg7 harg7 x0 x1 x2 x3 hc xs)]
  unfold runCarry
  dsimp only
  sl_unfold_words
  rw [View.canon_unit_zero zeros2]
  simp only [View.readAt_eq_ld, harg2.read_unread, harg3.read_unread, harg4.read_unread, harg5.read_unread, harg7.read_unread,
    View.ld_unit_zero (S := S512x128) zeros2, View.ld_unit_zero (S := S512x512) zeros2, View.ld_unit_zero (S := S1x1) zeros2]

/-- The result block is written from the cell's new contents. -/
theorem outCarry_eq (hc : ¬ resets i) (xs : Vec F S1x1 .f32) :
    outCarry c i arg2 harg2 arg3 harg3 arg4 harg4 arg5 harg5 arg6 harg6 arg7 harg7 x0 x1 x2 x3 hc xs = k0_pay5 (k0_pay4 (k0_pay2 x0 x1) (k0_pay3 x0 x1 x2) x3 xs) := by
  unfold outCarry
  rw [View.read_writes_eq_canon _ _ _ (coverCarry4 c i arg2 harg2 arg3 harg3 arg4 harg4 arg5 harg5 arg6 harg6 arg7 harg7 x0 x1 x2 x3 hc xs)]
  unfold runCarry
  dsimp only
  sl_unfold_words
  rw [View.canon_unit_zero zeros3, View.readCov_unit_zero _ zeros2]
  simp only [View.readAt_eq_ld, harg2.read_unread, harg3.read_unread, harg4.read_unread, harg5.read_unread, harg7.read_unread,
    View.ld_unit_zero (S := S512x128) zeros2, View.ld_unit_zero (S := S512x512) zeros2, View.ld_unit_zero (S := S1x1) zeros2]

/-- At the start of a block row: the cell, zeroed, gets the block's sums. -/
theorem accReset_eq (hc : resets i) :
    accReset c i arg2 harg2 arg3 harg3 arg4 harg4 arg5 harg5 arg6 harg6 arg7 harg7 x0 x1 x2 x3 hc = k0_pay4 (k0_pay2 x0 x1) (k0_pay3 x0 x1 x2) x3 k0_pay1 := by
  unfold accReset
  rw [View.read_writes_eq_canon _ _ _ (coverResetS c i arg2 harg2 arg3 harg3 arg4 harg4 arg5 harg5 arg6 harg6 arg7 harg7 x0 x1 x2 x3 hc)]
  unfold runReset
  dsimp only
  sl_unfold_words
  rw [View.canon_cons_unit_zero zeros2, View.readCov_unit_zero _ zeros2]
  simp only [View.readAt_eq_ld, harg2.read_unread, harg3.read_unread, harg4.read_unread, harg5.read_unread, harg7.read_unread,
    View.ld_unit_zero (S := S512x128) zeros2, View.ld_unit_zero (S := S512x512) zeros2, View.ld_unit_zero (S := S1x1) zeros2]

theorem outReset_eq (hc : resets i) :
    outReset c i arg2 harg2 arg3 harg3 arg4 harg4 arg5 harg5 arg6 harg6 arg7 harg7 x0 x1 x2 x3 hc = k0_pay5 (k0_pay4 (k0_pay2 x0 x1) (k0_pay3 x0 x1 x2) x3 k0_pay1) := by
  unfold outReset
  rw [View.read_writes_eq_canon _ _ _ (coverReset4 c i arg2 harg2 arg3 harg3 arg4 harg4 arg5 harg5 arg6 harg6 arg7 harg7 x0 x1 x2 x3 hc)]
  unfold runReset
  dsimp only
  sl_unfold_words
  rw [View.canon_unit_zero zeros3, View.readCov_unit_zero _ zeros2, View.readCov_cons_toLoadRect]
  simp only [View.readAt_eq_ld, harg2.read_unread, harg3.read_unread, harg4.read_unread, harg5.read_unread, harg7.read_unread,
    View.ld_unit_zero (S := S512x128) zeros2, View.ld_unit_zero (S := S512x512) zeros2, View.ld_unit_zero (S := S1x1) zeros2]
end

end Cert.KernelIdeal.Hand

end
-- ==== Proof.Spec.lean ====
/-
  The common value of the two programs, over the extended reals.

  With `L` the 4096 × 128 label table and `O` a 4096 × 4096 table of predictions, every pair of rows `(x, y)` gets the
  integer label `⌊(⟨L x, L y⟩ + 128) / (√(⟨L x, L x⟩ + 128) · √(⟨L y, L y⟩ + 128))⌋` — the cosine of the rows extended by
  128 ones, rounded down —, its smooth-L1 distance to `O x y` (`d²/2` below 1, `d − 1/2` from 1 on, `d = |O x y − label|`),
  and the result is the sum of those distances over both prediction tables and all pairs, divided by `2 · 4096²`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The label table's shape and a prediction table's. -/
abbrev SLab : Shape := ⟨2, ![4096, 128]⟩
abbrev SOut : Shape := ⟨2, ![4096, 4096]⟩

/-- The literals both programs spell: 128, 1, 1/2, 0 and 2²⁵ as binary32 words. -/
abbrev c128 : EReal := Ideal.ofBits .f32 0x43000000#32
abbrev c1 : EReal := Ideal.ofBits .f32 0x3F800000#32
abbrev ch : EReal := Ideal.ofBits .f32 0x3F000000#32
abbrev c2p25 : EReal := Ideal.ofBits .f32 0x4C000000#32

/-- The inner product of rows `x` and `y` of the label table. -/
def dotv (L : SLab.Idx → EReal) (x y : Fin 4096) : EReal := ∑ k : Fin 128, L (ix2 x k) * L (ix2 y k)

/-- The pair's integer label: the extended rows' cosine, rounded down. -/
def lbl (L : SLab.Idx → EReal) (x y : Fin 4096) : EReal :=
  FloatOps.floor (F := Ideal) (φ := .f32)
    (FloatOps.divf (F := Ideal) (φ := .f32) (dotv L x y + c128)
      (FloatOps.sqrt (F := Ideal) (φ := .f32) (dotv L x x + c128) * FloatOps.sqrt (F := Ideal) (φ := .f32) (dotv L y y + c128)))

/-- Smooth L1 of a distance `d`: `d²/2` below 1, `d − 1/2` otherwise. -/
def sl1 (d : EReal) : EReal :=
  Scalar.select (FloatOps.cmpf (F := Ideal) (φ := .f32) .olt d c1) (ch * d * d) (d - ch)

/-- The pair's loss against the prediction table `O`. -/
def loss (O : SOut.Idx → EReal) (L : SLab.Idx → EReal) (x y : Fin 4096) : EReal :=
  sl1 (FloatOps.absf (F := Ideal) (φ := .f32) (O (ix2 x y) - lbl L x y))

/-- The losses of all pairs, summed. -/
def lossSum (O : SOut.Idx → EReal) (L : SLab.Idx → EReal) : EReal := ∑ x : Fin 4096, ∑ y : Fin 4096, loss O L x y

/-- The result: both tables' sums, added, times one, over `2²⁵`. -/
def total (O0 O1 : SOut.Idx → EReal) (L : SLab.Idx → EReal) : EReal :=
  Ideal.div (c1 * (lossSum O0 L + lossSum O1 L)) c2p25

end Cert.Spec

end
-- ==== Proof.SumLaws.lean ====
import proofs.«152664_j24507083391380_1_alg».proof.Proof.Gen.KernelIdeal.Skeleton
import proofs.«152664_j24507083391380_1_alg».proof.Proof.Spec
import Idealize.ShloMosaic.Lib.ValueIdx
import Idealize.ShloMosaic.PureOps.Ideal.Laws
import Mathlib.Algebra.BigOperators.Fin
import Mathlib.Logic.Equiv.Fin.Basic

noncomputable section

open scoped BigOperators

namespace Cert.KernelIdeal.Sums

open Cert.KernelIdeal Cert.KernelIdeal.Gen Idealize.ShloMosaic Idealize.ShloMosaic.ValueIdx

/-! ## A running sum over a block row -/

/-- An accumulator that restarts from zero at every multiple of 8 and adds one term per step holds, at the last step of
    block row `i`, the sum of that row's eight terms. -/
theorem acc_row (b acc : ℕ → EReal) (h0 : ∀ n, n % 8 = 0 → acc n = 0 + b n)
    (hs : ∀ n, ¬ n % 8 = 0 → acc n = acc (n - 1) + b n) (i : ℕ) :
    acc (8 * i + 7) = ∑ j : Fin 8, b (8 * i + j.val) := by
  have e0 : acc (8 * i) = b (8 * i) := by rw [h0 _ (by omega), zero_add]
  have e1 : acc (8 * i + 1) = acc (8 * i) + b (8 * i + 1) := by
    have h := hs (8 * i + 1) (by omega); rwa [show 8 * i + 1 - 1 = 8 * i by omega] at h
  have e2 : acc (8 * i + 2) = acc (8 * i + 1) + b (8 * i + 2) := by
    have h := hs (8 * i + 2) (by omega); rwa [show 8 * i + 2 - 1 = 8 * i + 1 by omega] at h
  have e3 : acc (8 * i + 3) = acc (8 * i + 2) + b (8 * i + 3) := by
    have h := hs (8 * i + 3) (by omega); rwa [show 8 * i + 3 - 1 = 8 * i + 2 by omega] at h
  have e4 : acc (8 * i + 4) = acc (8 * i + 3) + b (8 * i + 4) := by
    have h := hs (8 * i + 4) (by omega); rwa [show 8 * i + 4 - 1 = 8 * i + 3 by omega] at h
  have e5 : acc (8 * i + 5) = acc (8 * i + 4) + b (8 * i + 5) := by
    have h := hs (8 * i + 5) (by omega); rwa [show 8 * i + 5 - 1 = 8 * i + 4 by omega] at h
  have e6 : acc (8 * i + 6) = acc (8 * i + 5) + b (8 * i + 6) := by
    have h := hs (8 * i + 6) (by omega); rwa [show 8 * i + 6 - 1 = 8 * i + 5 by omega] at h
  have e7 : acc (8 * i + 7) = acc (8 * i + 6) + b (8 * i + 7) := by
    have h := hs (8 * i + 7) (by omega); rwa [show 8 * i + 7 - 1 = 8 * i + 6 by omega] at h
  rw [e7, e6, e5, e4, e3, e2, e1, e0, Fin.sum_univ_eight]
  rfl

/-! ## The host operations after the region -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A tile that is `x` at row 0, lane 0 and zero elsewhere sums to `x`. -/
theorem sum_corner (x : EReal) : ∑ r : Fin 8, ∑ l : Fin 128, (if r.val = 0 ∧ l.val = 0 then x else 0) = x := by
  rw [Finset.sum_eq_single (0 : Fin 8)]
  · rw [Finset.sum_eq_single (0 : Fin 128)]
    · simp
    · intro l _ hl
      have : l.val ≠ 0 := fun h => hl (Fin.ext h)
      simp [this]
    · intro h; exact absurd (Finset.mem_univ _) h
  · intro r _ hr
    have : r.val ≠ 0 := fun h => hr (Fin.ext h)
    simp [this]
  · intro h; exact absurd (Finset.mem_univ _) h

/-- The host's tail — the sum of the whole `[8, 8, 128]` result from zero, times one, over `2²⁵` — on a result whose tile
    `i` holds `a i` at row 0, lane 0 and zero elsewhere: one times the sum of the `a i`, over `2²⁵`. -/
theorem tail_value (R : FVec Ideal S8x8x128 .f32) (a : Fin 8 → EReal)
    (hR : ∀ (i : Fin 8) (r : Fin 8) (l : Fin 128), R (ix3 i r l) = if r.val = 0 ∧ l.val = 0 then a i else 0)
    (j : S_.Idx) :
    Host.divf (F := Ideal) (mulf (constant (F := Ideal) S_ .f32 0x3F800000#32)
        (Host.reduceAdd R (constant (F := Ideal) S_ .f32 0x00000000#32) reducesTo_S8x8x128_S_d0_1_2 h_S_))
      (constant (F := Ideal) S_ .f32 0x4C000000#32) j
      = Ideal.div (Spec.c1 * ∑ i : Fin 8, a i) Spec.c2p25 := by
  show Ideal.div (Spec.c1 * Host.reduceAdd R (constant (F := Ideal) S_ .f32 0x00000000#32) reducesTo_S8x8x128_S_d0_1_2 h_S_ j) Spec.c2p25 = _
  refine congrArg (fun t => Ideal.div (Spec.c1 * t) Spec.c2p25) ?_
  simp only [Host.reduceAdd, Ideal.hostReduceAdd_def]
  rw [Ideal.hostReduceAdd_total reducesTo_S8x8x128_S_d0_1_2 (fun b => b.elim0) R _ j]
  show Ideal.ofBits .f32 0x00000000#32 + _ = _
  rw [Ideal.ofBits_zero_f32, zero_add, sum_idx3]
  refine Finset.sum_congr rfl fun i _ => ?_
  exact (Finset.sum_congr rfl fun r _ => Finset.sum_congr rfl fun l _ => hR i r l).trans (sum_corner (a i))

/-! ## Blocks to the whole -/

/-- Element `p` of block `i` of a length-4096 axis cut into eight blocks of 512. -/
def blk (i : Fin 8) (p : Fin 512) : Fin 4096 := ⟨512 * i.val + p.val, by omega⟩
theorem blk_val (i : Fin 8) (p : Fin 512) : (blk i p).val = 512 * i.val + p.val := rfl

/-- A sum over the blocks and then within each block is the sum over the whole axis. -/
theorem sum_blk {M : Type*} [AddCommMonoid M] (g : Fin 4096 → M) : ∑ i : Fin 8, ∑ p : Fin 512, g (blk i p) = ∑ x : Fin 4096, g x := by
  rw [← Fintype.sum_prod_type' (f := fun i p => g (blk i p))]
  exact Fintype.sum_equiv (finProdFinEquiv.trans (finCongr (by norm_num : 8 * 512 = 4096))) _ _
    (fun x => congrArg g (Fin.ext (by
      show 512 * x.1.val + x.2.val = x.2.val + 512 * x.1.val
      omega)))

/-- The same on both axes of a table: the sum over the 8 × 8 blocks of each block's total is the table's total. -/
theorem sum_blocks (f : Fin 4096 → Fin 4096 → EReal) :
    ∑ i : Fin 8, ∑ j : Fin 8, ∑ p : Fin 512, ∑ q : Fin 512, f (blk i p) (blk j q) = ∑ x : Fin 4096, ∑ y : Fin 4096, f x y :=
  calc ∑ i : Fin 8, ∑ j : Fin 8, ∑ p : Fin 512, ∑ q : Fin 512, f (blk i p) (blk j q)
      = ∑ i : Fin 8, ∑ p : Fin 512, ∑ j : Fin 8, ∑ q : Fin 512, f (blk i p) (blk j q) :=
        Finset.sum_congr rfl fun i _ => Finset.sum_comm
    _ = ∑ x : Fin 4096, ∑ j : Fin 8, ∑ q : Fin 512, f x (blk j q) :=
        sum_blk (fun x => ∑ j : Fin 8, ∑ q : Fin 512, f x (blk j q))
    _ = ∑ x : Fin 4096, ∑ y : Fin 4096, f x y := Finset.sum_congr rfl fun x _ => sum_blk (f x)

/-- With two tables added block by block. -/
theorem sum_blocks_add (f g : Fin 4096 → Fin 4096 → EReal) :
    ∑ i : Fin 8, ∑ j : Fin 8, ((∑ p : Fin 512, ∑ q : Fin 512, f (blk i p) (blk j q))
        + (∑ p : Fin 512, ∑ q : Fin 512, g (blk i p) (blk j q)))
      = (∑ x, ∑ y, f x y) + (∑ x, ∑ y, g x y) := by
  simp only [Finset.sum_add_distrib]
  rw [sum_blocks f, sum_blocks g]

end Cert.KernelIdeal.Sums

end
-- ==== Proof.KIBlocks.lean ====
import proofs.«152664_j24507083391380_1_alg».proof.Proof.KIKit
import proofs.«152664_j24507083391380_1_alg».proof.Proof.SumLaws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid point's block row and block column -/

/-- Point `t` of the 8 × 8 grid lies in block row `t / 8` … -/
def brow (t : Fin cfg0.N) : Fin 8 := ⟨t.val / 8, by have h : t.val < grid0.N := t.isLt; rw [N_0] at h; omega⟩
/-- … and block column `t % 8`. -/
def bcol (t : Fin cfg0.N) : Fin 8 := ⟨t.val % 8, by omega⟩
theorem brow_val (t : Fin cfg0.N) : (brow t).val = t.val / 8 := rfl
theorem bcol_val (t : Fin cfg0.N) : (bcol t).val = t.val % 8 := rfl

/-- The printed index maps, decided over the grid: windows 0 and 1 read the label rows of the point's block row and block
    column, windows 2 and 3 the prediction tables at that block, window 4 the result block of the block row. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N, _)

/-- The result window's block index at point `t`: the block row, and nothing else. -/
theorem out_index : ∀ t : Fin cfg0.N, win0_4.index t = ![t.val / 8, 0, 0] :=
  (by decide +kernel : ∀ t : Fin grid0.N, _)

/-! ## The four input blocks at coordinates -/

/-- Window 0's block at point `t`: rows `512 · (t / 8) + p` of the label table. -/
theorem iblk0_apply (c : Dev nD) (t : Fin cfg0.N) (p : Fin 512) (k : Fin 128) :
    iblk m c 0 t (ix2 p k) = V m c main_arg2 (ix2 (Sums.blk (brow t) p) k) := by
  obtain ⟨e0, e1, -⟩ := idx_facts t
  show V m c main_arg2 (((cfg0.win 0).blk t).view.emb (ix2 p k)) = _
  refine congrArg (V m c main_arg2) (funext fun a => Fin.ext ?_)
  match a with
  | ⟨0, _⟩ => show win0_0.index t (0 : Fin 2) * 512 + 1 * p.val = 512 * (t.val / 8) + p.val; rw [e0]; omega
  | ⟨1, _⟩ => show win0_0.index t (1 : Fin 2) * 128 + 1 * k.val = k.val; rw [e1]; omega

/-- Window 1's block at point `t`: rows `512 · (t % 8) + q` of the label table. -/
theorem iblk1_apply (c : Dev nD) (t : Fin cfg0.N) (q : Fin 512) (k : Fin 128) :
    iblk m c 1 t (ix2 q k) = V m c main_arg2 (ix2 (Sums.blk (bcol t) q) k) := by
  obtain ⟨-, -, e0, e1, -⟩ := idx_facts t
  show V m c main_arg2 (((cfg0.win 1).blk t).view.emb (ix2 q k)) = _
  refine congrArg (V m c main_arg2) (funext fun a => Fin.ext ?_)
  match a with
  | ⟨0, _⟩ => show win0_1.index t (0 : Fin 2) * 512 + 1 * q.val = 512 * (t.val % 8) + q.val; rw [e0]; omega
  | ⟨1, _⟩ => show win0_1.index t (1 : Fin 2) * 128 + 1 * k.val = k.val; rw [e1]; omega

/-- Window 2's block at point `t`: block `(t / 8, t % 8)` of the first prediction table. -/
theorem iblk2_apply (c : Dev nD) (t : Fin cfg0.N) (p q : Fin 512) :
    iblk m c 2 t (ix2 p q) = V m c main_arg0 (ix2 (Sums.blk (brow t) p) (Sums.blk (bcol t) q)) := by
  obtain ⟨-, -, -, -, e0, e1, -⟩ := idx_facts t
  show V m c main_arg0 (((cfg0.win 2).blk t).view.emb (ix2 p q)) = _
  refine congrArg (V m c main_arg0) (funext fun a => Fin.ext ?_)
  match a with
  | ⟨0, _⟩ => show win0_2.index t (0 : Fin 2) * 512 + 1 * p.val = 512 * (t.val / 8) + p.val; rw [e0]; omega
  | ⟨1, _⟩ => show win0_2.index t (1 : Fin 2) * 512 + 1 * q.val = 512 * (t.val % 8) + q.val; rw [e1]; omega

/-- Window 3's block at point `t`: block `(t / 8, t % 8)` of the second prediction table. -/
theorem iblk3_apply (c : Dev nD) (t : Fin cfg0.N) (p q : Fin 512) :
    iblk m c 3 t (ix2 p q) = V m c main_arg1 (ix2 (Sums.blk (brow t) p) (Sums.blk (bcol t) q)) := by
  obtain ⟨-, -, -, -, -, -, e0, e1⟩ := idx_facts t
  show V m c main_arg1 (((cfg0.win 3).blk t).view.emb (ix2 p q)) = _
  refine congrArg (V m c main_arg1) (funext fun a => Fin.ext ?_)
  match a with
  | ⟨0, _⟩ => show win0_3.index t (0 : Fin 2) * 512 + 1 * p.val = 512 * (t.val / 8) + p.val; rw [e0]; omega
  | ⟨1, _⟩ => show win0_3.index t (1 : Fin 2) * 512 + 1 * q.val = 512 * (t.val % 8) + q.val; rw [e1]; omega

/-- The result window's block is written back at the last point of each block row. -/
theorem out_flush (t : Fin cfg0.N) : (cfg0.win 4).flush t = true ↔ t.val % 8 = 7 := flush0_4 t

end Cert.KernelIdeal.Hand

end
-- ==== Proof.PayIdeal.lean ====
import proofs.«152664_j24507083391380_1_alg».proof.Proof.Gen.KernelIdeal.Skeleton
import proofs.«152664_j24507083391380_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Column forms of the layout operations, and the one-axis sums, at explicit coordinates -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the lanes (axis 1) of an `[a, b]` array, read at row `p`: the sum of that row. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  refine Finset.sum_congr rfl fun k _ => congrArg src (funext fun c => Fin.ext ?_)
  match c with
  | ⟨0, _⟩ => rfl
  | ⟨1, _⟩ => rfl

/-- A sum over the rows (axis 0) of an `[a, 1]` column, read at its one index: the sum of the column. -/
theorem multiReduction_add_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec FTy.f32.bits) = FKind.add.neutral .f32 hφ) (u : Fin 1) :
    multiReduction .add [0] ⟨1, ![1]⟩ src 0x00000000#32 h hφ hacc (ix1 u) = ∑ k : Fin a, src (ix2 k u) := by
  refine (Ideal.multiReduction_add_single src _ h hφ hacc (ix1 u)).trans ?_
  show ∑ k : Fin a, src (h.lift (ix1 u) k) = _
  refine Finset.sum_congr rfl fun k _ => congrArg src (funext fun c => Fin.ext ?_)
  match c with
  | ⟨0, _⟩ => rfl
  | ⟨1, _⟩ => rfl

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first payload: the zero word -/

/-- The first payload is the zero word everywhere. -/
theorem pay1_apply (j : S1x1.Idx) : k0_pay1 (F := Ideal) j = 0 := by
  unfold k0_pay1
  rw [shapeCast_self]
  exact Ideal.ofBits_zero_f32

/-! ## The last payload: the accumulator placed at row 0, lane 0 -/

/-- A 32-bit word made from a natural below 2³² equals the zero word exactly when the natural is zero. -/
theorem cmpi_eq_ofNat_zero (n : Nat) (hn : n < 4294967296) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro e
      have e' := congrArg BitVec.toNat e
      rw [BitVec.toNat_ofNat, BitVec.toNat_ofNat] at e'
      omega
    show BitVec.ofBool (BitVec.ofNat 32 n == 0#32) = 0#1
    rw [hne]; rfl

/-- A `[1, 1, 1]` array broadcast to `[1, 8, 128]` reads its one element everywhere. -/
theorem broadcastTo_111_1ab_apply {α : Type} (x : S1x1x1.Idx → α) (h : S1x1x1.Broadcasts S1x8x128) (r : Fin 8) (l : Fin 128) :
    broadcastTo S1x8x128 x h (ix3 (0 : Fin 1) r l) = x (ix3 (0 : Fin 1) (0 : Fin 1) (0 : Fin 1)) :=
  broadcastTo_apply x h _ _ fun a => match a with | ⟨0, _⟩ => rfl | ⟨1, _⟩ => rfl | ⟨2, _⟩ => rfl

/-- The select on "row is 0 and lane is 0" is the `if`. -/
theorem select_and_eq0 {α : Type} (r l : Nat) (hr : r < 4294967296) (hl : l < 4294967296) (A B : α) :
    Scalar.select (IntOp.andi (IntOp.cmpi .eq (BitVec.ofNat 32 r) 0#32) (IntOp.cmpi .eq (BitVec.ofNat 32 l) 0#32)) A B
      = if r = 0 ∧ l = 0 then A else B := by
  rw [cmpi_eq_ofNat_zero r hr, cmpi_eq_ofNat_zero l hl]
  by_cases h1 : r = 0 <;> by_cases h2 : l = 0 <;> simp [h1, h2, IntOp.andi, Scalar.select]

/-- The last payload: the accumulator's one element at row 0, lane 0 of the output tile, zero elsewhere. -/
theorem pay5_apply (v70 : Vec Ideal S1x1 .f32) (r : Fin 8) (l : Fin 128) :
    k0_pay5 v70 (ix3 (0 : Fin 1) r l) = if r.val = 0 ∧ l.val = 0 then v70 (ix2 0 0) else 0 := by
  unfold k0_pay5
  simp only [select_apply, andi, cmpi, broadcast_apply]
  rw [iota_single_apply, iota_single_apply, shapeCast_self, broadcastTo_111_1ab_apply,
    shapeCast_ab_1ab_apply]
  exact (select_and_eq0 r.val l.val (by omega) (by omega) _ _).trans (by rw [Ideal.ofBits_def, Ideal.ofBits_zero_f32])

/-! ## The smooth-L1 row sums, and the accumulator's update -/

/-- The third payload at row `p`: the sum over the row of the smooth-L1 distances between the first prediction tile and
    the labels (the select/compare/multiply/subtract chain of the kernel, read at an element, is `Spec.sl1`). -/
theorem pay3_apply (v3 v4 : Vec Ideal S512x128 .f32) (v27 : Vec Ideal S512x512 .f32) (p : Fin 512) :
    k0_pay3 v3 v4 v27 (ix1 p)
      = ∑ q : Fin 512, Spec.sl1 (FloatOps.absf (F := Ideal) (φ := .f32) (v27 (ix2 p q) - k0_pay2 v3 v4 (ix2 p q))) := by
  unfold k0_pay3
  generalize k0_pay2 v3 v4 = L
  refine (multiReduction_add_axis1_apply _ reduces_S512x512_S512 _ _ p).trans ?_
  rfl

/-- The fourth payload: the accumulator's element plus the total of the first tile's row sums plus the total of the
    second tile's smooth-L1 distances. -/
theorem pay4_apply (v26 : FVec Ideal S512x512 .f32) (v38 : FVec Ideal S512 .f32) (v42 : Vec Ideal S512x512 .f32)
    (v57 : Vec Ideal S1x1 .f32) (j : S1x1.Idx) :
    k0_pay4 v26 v38 v42 v57 j
      = v57 (ix2 0 0) + ((∑ p : Fin 512, v38 (ix1 p))
          + (∑ p : Fin 512, ∑ q : Fin 512, Spec.sl1 (FloatOps.absf (F := Ideal) (φ := .f32) (v42 (ix2 p q) - v26 (ix2 p q))))) := by
  have hj : j = ix2 (0 : Fin 1) (0 : Fin 1) := (eq_ix2 j).trans (funext fun c => Fin.ext (by
    match c with
    | ⟨0, _⟩ => have := idx2_lt0 j; show (j 0).val = 0; omega
    | ⟨1, _⟩ => have := idx2_lt1 j; show (j 1).val = 0; omega))
  subst hj
  unfold k0_pay4
  rw [shapeCast_self]
  simp only [addf_apply]
  rw [shapeCast_a_1a_apply, shapeCast_a_1a_apply]
  refine congrArg (v57 (ix2 0 0) + ·) ?_
  refine congrArg₂ (· + ·) ?_ ?_
  · refine (multiReduction_add_axis0_col_apply _ reduces_S512x1_S1 _ _ 0).trans ?_
    exact Finset.sum_congr rfl fun p _ => shapeCast_a_a1_apply v38 _ p 0
  · refine (multiReduction_add_axis0_col_apply _ reduces_S512x1_S1 _ _ 0).trans ?_
    refine Finset.sum_congr rfl fun p _ => ?_
    refine (shapeCast_a_a1_apply _ _ p 0).trans ?_
    refine (multiReduction_add_axis1_apply _ reduces_S512x512_S512 _ _ p).trans ?_
    rfl

/-! ## The labels: the matmul against the transpose, the two norms, the quotient rounded down -/

theorem lhs_dot_0 (i : S512x512.Idx) (k : dot_S512x128_S128x512_S512x512_1_0_0_1_n_n.contr.Idx) :
    (dot_S512x128_S128x512_S512x512_1_0_0_1_n_n.lhsIdx i k 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
theorem lhs_dot_1 (i : S512x512.Idx) (k : dot_S512x128_S128x512_S512x512_1_0_0_1_n_n.contr.Idx) :
    (dot_S512x128_S128x512_S512x512_1_0_0_1_n_n.lhsIdx i k 1).val = (k ⟨0, by decide⟩).val :=
  dot_S512x128_S128x512_S512x512_1_0_0_1_n_n.lhsIdx_val_of_single rfl i k
theorem rhs_dot_0 (i : S512x512.Idx) (k : dot_S512x128_S128x512_S512x512_1_0_0_1_n_n.contr.Idx) :
    (dot_S512x128_S128x512_S512x512_1_0_0_1_n_n.rhsIdx i k 0).val = (k ⟨0, by decide⟩).val :=
  dot_S512x128_S128x512_S512x512_1_0_0_1_n_n.rhsIdx_val_of_single rfl i k
theorem rhs_dot_1 (i : S512x512.Idx) (k : dot_S512x128_S128x512_S512x512_1_0_0_1_n_n.contr.Idx) :
    (dot_S512x128_S128x512_S512x512_1_0_0_1_n_n.rhsIdx i k 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- The matmul of `x` with the transpose of `y` into the zero accumulator, at `(p, q)`: the inner product of row `p` of
    `x` and row `q` of `y`. -/
theorem matmul_transpose_apply (x y : FVec Ideal S512x128 .f32) (h : S512x128.Transposes [1, 0] S128x512) (p q : Fin 512) :
    matmul dot_S512x128_S128x512_S512x512_1_0_0_1_n_n (some .fp32) x (transpose S128x512 [1, 0] y h) (constant (F := Ideal) S512x512 .f32 0x00000000#32) (ix2 p q)
      = ∑ k : Fin 128, x (ix2 p k) * y (ix2 q k) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S512x128_S128x512_S512x512_1_0_0_1_n_n.rhsIdx (ix2 p q) ((contrEquiv1 dot_S512x128_S128x512_S512x512_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  exact congrArg (x (ix2 p k) * ·) (transpose_ix2_apply y h k q)

/-- The second payload at `(p, q)`: the label of rows `p` and `q` — their inner product plus 128 over the product of the
    two norms, rounded down. -/
theorem pay2_apply (v3 v4 : Vec Ideal S512x128 .f32) (p q : Fin 512) :
    k0_pay2 v3 v4 (ix2 p q)
      = FloatOps.floor (F := Ideal) (φ := .f32) (FloatOps.divf (F := Ideal) (φ := .f32)
          ((∑ k : Fin 128, v3 (ix2 p k) * v4 (ix2 q k)) + Spec.c128)
          (FloatOps.sqrt (F := Ideal) (φ := .f32) ((∑ k : Fin 128, v3 (ix2 p k) * v3 (ix2 p k)) + Spec.c128)
            * FloatOps.sqrt (F := Ideal) (φ := .f32) ((∑ k : Fin 128, v4 (ix2 q k) * v4 (ix2 q k)) + Spec.c128))) := by
  unfold k0_pay2
  simp only [floor, divf, addf, mulf, sqrt, broadcast]
  refine congrArg (FloatOps.floor (F := Ideal) (φ := .f32)) ?_
  refine congrArg₂ (FloatOps.divf (F := Ideal) (φ := .f32)) ?_ ?_
  · refine congrArg (· + Spec.c128) ?_
    exact matmul_transpose_apply v3 v4 _ p q
  · refine congrArg₂ (· * ·) ?_ ?_
    · refine (broadcastTo_a1_ab_apply _ _ p q).trans ?_
      refine congrArg (FloatOps.sqrt (F := Ideal) (φ := .f32)) ?_
      refine congrArg (· + Spec.c128) ?_
      refine (shapeCast_a_a1_apply _ _ p 0).trans ?_
      exact multiReduction_add_axis1_apply _ reduces_S512x128_S512 _ _ p
    · refine (broadcastTo_1b_ab_apply _ _ p q).trans ?_
      refine (transpose_ix2_apply _ _ (0 : Fin 1) q).trans ?_
      refine congrArg (FloatOps.sqrt (F := Ideal) (φ := .f32)) ?_
      refine congrArg (· + Spec.c128) ?_
      refine (shapeCast_a_a1_apply _ _ q 0).trans ?_
      exact multiReduction_add_axis1_apply _ reduces_S512x128_S512 _ _ q

end Cert.KernelIdeal.Pay

end
-- ==== Proof.KIBlockSum.lean ====
import proofs.«152664_j24507083391380_1_alg».proof.Proof.PayIdeal
import proofs.«152664_j24507083391380_1_alg».proof.Proof.SumLaws
import proofs.«152664_j24507083391380_1_alg».proof.Proof.Spec
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A block's two loss sums, as the body computes them from its four blocks. -/
def bsumOf (x0 x1 : Vec Ideal S512x128 .f32) (x2 x3 : Vec Ideal S512x512 .f32) : EReal :=
  (∑ p : Fin 512, k0_pay3 (F := Ideal) x0 x1 x2 (ix1 p))
    + (∑ p : Fin 512, ∑ q : Fin 512, Spec.sl1 (FloatOps.absf (F := Ideal) (φ := .f32) (x3 (ix2 p q) - k0_pay2 (F := Ideal) x0 x1 (ix2 p q))))

/-- On blocks `i` and `j` of the label table the body's label at `(p, q)` is the specification's label of rows
    `512 i + p` and `512 j + q`. -/
theorem pay2_lbl (x0 x1 : Vec Ideal S512x128 .f32) (L : Spec.SLab.Idx → EReal) (i j : Fin 8)
    (h0 : ∀ (p : Fin 512) (k : Fin 128), x0 (ix2 p k) = L (ix2 (Sums.blk i p) k))
    (h1 : ∀ (q : Fin 512) (k : Fin 128), x1 (ix2 q k) = L (ix2 (Sums.blk j q) k)) (p q : Fin 512) :
    k0_pay2 (F := Ideal) x0 x1 (ix2 p q) = Spec.lbl L (Sums.blk i p) (Sums.blk j q) := by
  rw [Pay.pay2_apply]
  simp only [h0, h1]
  rfl

/-- A block's two loss sums are the specification's losses of the block's pairs of rows, summed, for the two prediction
    tables. -/
theorem bsumOf_eq (x0 x1 : Vec Ideal S512x128 .f32) (x2 x3 : Vec Ideal S512x512 .f32) (L : Spec.SLab.Idx → EReal)
    (O0 O1 : Spec.SOut.Idx → EReal) (i j : Fin 8)
    (h0 : ∀ (p : Fin 512) (k : Fin 128), x0 (ix2 p k) = L (ix2 (Sums.blk i p) k))
    (h1 : ∀ (q : Fin 512) (k : Fin 128), x1 (ix2 q k) = L (ix2 (Sums.blk j q) k))
    (h2 : ∀ p q : Fin 512, x2 (ix2 p q) = O0 (ix2 (Sums.blk i p) (Sums.blk j q)))
    (h3 : ∀ p q : Fin 512, x3 (ix2 p q) = O1 (ix2 (Sums.blk i p) (Sums.blk j q))) :
    bsumOf x0 x1 x2 x3
      = (∑ p : Fin 512, ∑ q : Fin 512, Spec.loss O0 L (Sums.blk i p) (Sums.blk j q))
        + (∑ p : Fin 512, ∑ q : Fin 512, Spec.loss O1 L (Sums.blk i p) (Sums.blk j q)) := by
  have hl := pay2_lbl x0 x1 L i j h0 h1
  unfold bsumOf
  refine congrArg₂ (· + ·) ?_ ?_
  · refine Finset.sum_congr rfl fun p _ => ?_
    rw [Pay.pay3_apply]
    refine Finset.sum_congr rfl fun q _ => ?_
    rw [hl p q, h2 p q]
    rfl
  · refine Finset.sum_congr rfl fun p _ => Finset.sum_congr rfl fun q _ => ?_
    rw [hl p q, h3 p q]
    rfl

/-- The grid's 64 block sums, each the two tables' totals over its block, add up to the two tables' totals. -/
theorem rows_total (B : ℕ → EReal) (f g : Fin 4096 → Fin 4096 → EReal)
    (hB : ∀ (i j : Fin 8), B (8 * i.val + j.val)
      = (∑ p : Fin 512, ∑ q : Fin 512, f (Sums.blk i p) (Sums.blk j q)) + (∑ p : Fin 512, ∑ q : Fin 512, g (Sums.blk i p) (Sums.blk j q))) :
    ∑ i : Fin 8, ∑ j : Fin 8, B (8 * i.val + j.val) = (∑ x, ∑ y, f x y) + (∑ x, ∑ y, g x y) := by
  simp only [hB]
  exact Sums.sum_blocks_add f g

end Cert.KernelIdeal.Hand

end
-- ==== Proof.KIValue.lean ====
/-
  The kernel's result as a value, over the extended reals.

  At point `t` — block row `t / 8`, block column `t % 8` — the body adds to the running sum the block's two loss sums;
  the sum restarts at each block row, so after the row's last point the cell holds the row's eight blocks' sums, and that
  is what the result array gets at the row's corner, zeros elsewhere. The scalar operations after the region add the
  array up, multiply by one and divide by 2²⁵. Reading each block through its window, a block's loss sum is the sum of the
  pairs' losses over the block's rows and columns; the blocks tile the 4096 × 4096 pairs.
-/
import proofs.«152664_j24507083391380_1_alg».proof.Proof.KILaunch
import proofs.«152664_j24507083391380_1_alg».proof.Proof.KIPieces
import proofs.«152664_j24507083391380_1_alg».proof.Proof.KIBlocks
import proofs.«152664_j24507083391380_1_alg».proof.Proof.KIBlockSum
import proofs.«152664_j24507083391380_1_alg».proof.Proof.PayIdeal
import proofs.«152664_j24507083391380_1_alg».proof.Proof.SumLaws
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## One run of the body -/

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x8x128 .f32) (harg6 : arg6.IsWhole) (arg7 : Memref sig .tc .vmem S1x1 .f32) (harg7 : arg7.IsWhole)
  (x0 x1 : Vec Ideal S512x128 .f32) (x2 x3 : Vec Ideal S512x512 .f32)

theorem accReset_val (hc : resets i) :
    accReset c i arg2 harg2 arg3 harg3 arg4 harg4 arg5 harg5 arg6 harg6 arg7 harg7 x0 x1 x2 x3 hc (ix2 0 0) = 0 + bsumOf x0 x1 x2 x3 := by
  rw [accReset_eq, Pay.pay4_apply, Pay.pay1_apply]; rfl

theorem accCarry_val (hc : ¬ resets i) (xs : Vec Ideal S1x1 .f32) :
    accCarry c i arg2 harg2 arg3 harg3 arg4 harg4 arg5 harg5 arg6 harg6 arg7 harg7 x0 x1 x2 x3 hc xs (ix2 0 0) = xs (ix2 0 0) + bsumOf x0 x1 x2 x3 := by
  rw [accCarry_eq, Pay.pay4_apply]; rfl

theorem outReset_val (hc : resets i) (r : Fin 8) (l : Fin 128) :
    outReset c i arg2 harg2 arg3 harg3 arg4 harg4 arg5 harg5 arg6 harg6 arg7 harg7 x0 x1 x2 x3 hc (ix3 (0 : Fin 1) r l)
      = if r.val = 0 ∧ l.val = 0 then accReset c i arg2 harg2 arg3 harg3 arg4 harg4 arg5 harg5 arg6 harg6 arg7 harg7 x0 x1 x2 x3 hc (ix2 0 0) else 0 := by
  rw [outReset_eq, accReset_eq, Pay.pay5_apply]

theorem outCarry_val (hc : ¬ resets i) (xs : Vec Ideal S1x1 .f32) (r : Fin 8) (l : Fin 128) :
    outCarry c i arg2 harg2 arg3 harg3 arg4 harg4 arg5 harg5 arg6 harg6 arg7 harg7 x0 x1 x2 x3 hc xs (ix3 (0 : Fin 1) r l)
      = if r.val = 0 ∧ l.val = 0 then accCarry c i arg2 harg2 arg3 harg3 arg4 harg4 arg5 harg5 arg6 harg6 arg7 harg7 x0 x1 x2 x3 hc xs (ix2 0 0) else 0 := by
  rw [outCarry_eq, accCarry_eq, Pay.pay5_apply]
end

/-! ## One point -/

/-- The block's two loss sums at point `t`. -/
def bsum (c : Dev nD) (t : Fin cfg0.N) : EReal := bsumOf (iblk m c 0 t) (iblk m c 1 t) (iblk m c 2 t) (iblk m c 3 t)

/-- Where a block row starts the cell ends at zero plus the block's sums; -/
theorem acc_reset (c : Dev nD) (t : Fin cfg0.N) (h : t.val % 8 = 0) :
    (outsAt m c t.val t.isLt).2 (ix2 0 0) = 0 + bsum m c t := by
  refine (congrArg (fun z : Vec Ideal S1x8x128 .f32 × Vec Ideal S1x1 .f32 => z.2 (ix2 0 0)) (outsAt_reset m c t h)).trans ?_
  unfold stepReset bsum
  exact accReset_val c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h)

/-- elsewhere at what it held plus the block's sums. -/
theorem acc_carry (c : Dev nD) (t : Fin cfg0.N) (h : ¬ t.val % 8 = 0) :
    (outsAt m c t.val t.isLt).2 (ix2 0 0)
      = (outsAt m c (t.val - 1) (Nat.lt_of_le_of_lt (Nat.sub_le _ _) t.isLt)).2 (ix2 0 0) + bsum m c t := by
  refine (congrArg (fun z : Vec Ideal S1x8x128 .f32 × Vec Ideal S1x1 .f32 => z.2 (ix2 0 0)) (outsAt_carry m c t h)).trans ?_
  unfold stepCarry bsum
  exact accCarry_val c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h'))
      (outsAt m c (t.val - 1) (Nat.lt_of_le_of_lt (Nat.sub_le _ _) t.isLt)).2

/-- The result block after either kind of step: the cell's new contents at the corner, zero elsewhere. -/
theorem stepReset_out (c : Dev nD) (t : Fin cfg0.N) (h : t.val % 8 = 0) (r : Fin 8) (l : Fin 128) :
    (stepReset m c t h).1 (ix3 (0 : Fin 1) r l) = if r.val = 0 ∧ l.val = 0 then (stepReset m c t h).2 (ix2 0 0) else 0 := by
  unfold stepReset
  dsimp only
  exact outReset_val c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) ((resets_iff t).mpr h) r l

theorem stepCarry_out (c : Dev nD) (t : Fin cfg0.N) (h : ¬ t.val % 8 = 0) (xs : Vec Ideal S1x1 .f32) (r : Fin 8) (l : Fin 128) :
    (stepCarry m c t h xs).1 (ix3 (0 : Fin 1) r l) = if r.val = 0 ∧ l.val = 0 then (stepCarry m c t h xs).2 (ix2 0 0) else 0 := by
  unfold stepCarry
  dsimp only
  exact outCarry_val c (grid0.coords t) (ms0 t) (hs0 t) (ms1 t) (hs1 t) (ms2 t) (hs2 t) (ms3 t) (hs3 t) (ms4 t) (hs4 t) accM (Memref.isWhole_whole _) (iblk m c 0 t) (iblk m c 1 t) (iblk m c 2 t) (iblk m c 3 t) (fun h' => h ((resets_iff t).mp h')) xs r l

/-- The result block after a point: the cell's contents at the corner, zero elsewhere. -/
theorem out_at (c : Dev nD) (t : Fin cfg0.N) (r : Fin 8) (l : Fin 128) :
    (outsAt m c t.val t.isLt).1 (ix3 (0 : Fin 1) r l)
      = if r.val = 0 ∧ l.val = 0 then (outsAt m c t.val t.isLt).2 (ix2 0 0) else 0 := by
  by_cases h : t.val % 8 = 0
  · exact (congrArg (fun z : Vec Ideal S1x8x128 .f32 × Vec Ideal S1x1 .f32 =>
        z.1 (ix3 (0 : Fin 1) r l) = if r.val = 0 ∧ l.val = 0 then z.2 (ix2 0 0) else 0) (outsAt_reset m c t h)).mpr (stepReset_out m c t h r l)
  · exact (congrArg (fun z : Vec Ideal S1x8x128 .f32 × Vec Ideal S1x1 .f32 =>
        z.1 (ix3 (0 : Fin 1) r l) = if r.val = 0 ∧ l.val = 0 then z.2 (ix2 0 0) else 0) (outsAt_carry m c t h)).mpr (stepCarry_out m c t h _ r l)

/-! ## A block row -/

/-- The cell after point `n`, and the block sums, over all naturals (zero past the grid). -/
def accN (c : Dev nD) (n : ℕ) : EReal := if h : n < cfg0.N then (outsAt m c n h).2 (ix2 0 0) else 0
def bN (c : Dev nD) (n : ℕ) : EReal := if h : n < cfg0.N then bsum m c ⟨n, h⟩ else 0

/-- After the last point of block row `i` the cell holds the row's eight block sums. -/
theorem accN_row (c : Dev nD) (i : ℕ) : accN m c (8 * i + 7) = ∑ j : Fin 8, bN m c (8 * i + j.val) := by
  have hN : cfg0.N = 64 := N_0
  refine Sums.acc_row (bN m c) (accN m c) (fun n h => ?_) (fun n h => ?_) i
  · unfold accN bN
    by_cases hn : n < cfg0.N
    · rw [dif_pos hn, dif_pos hn]; exact acc_reset m c ⟨n, hn⟩ h
    · rw [dif_neg hn, dif_neg hn]; exact (zero_add 0).symm
  · unfold accN bN
    by_cases hn : n < cfg0.N
    · have hn' : n - 1 < cfg0.N := by omega
      rw [dif_pos hn, dif_pos hn, dif_pos hn']; exact acc_carry m c ⟨n, hn⟩ h
    · have hn' : ¬ n - 1 < cfg0.N := by omega
      rw [dif_neg hn, dif_neg hn, dif_neg hn']; exact (zero_add 0).symm

end Cert.KernelIdeal.Hand

end
-- ==== Proof.KIFinalArr.lean ====
import proofs.«152664_j24507083391380_1_alg».proof.Proof.KIData
import proofs.«152664_j24507083391380_1_alg».proof.Proof.KIBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The result array after the region -/

/-- The result window's index at a point, axis by axis. -/
theorem out_index0 (t : Fin cfg0.N) : win0_4.index t (0 : Fin 3) = t.val / 8 := congrFun (out_index t) 0
theorem out_index1 (t : Fin cfg0.N) : win0_4.index t (1 : Fin 3) = 0 := congrFun (out_index t) 1
theorem out_index2 (t : Fin cfg0.N) : win0_4.index t (2 : Fin 3) = 0 := congrFun (out_index t) 2

/-- An index of the result array is in point `t`'s block iff each coordinate is in the block's range on its axis. -/
theorem mem_blk4 (t : Fin cfg0.N) (i : S8x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0).slice (win0_4.rect t)).set ↔ _
  rw [View.set_slice_whole, Rect.mem_set_unit]
  exact Iff.rfl

/-- Every index of the result array lies in the block written back at the last point of its block row. -/
theorem cover4 (i : S8x8x128.Idx) : ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 128 := (i 2).isLt
  have hN : 8 * (i 0).val + 7 < cfg0.N := by show _ < grid0.N; rw [N_0]; omega
  refine ⟨⟨8 * (i 0).val + 7, hN⟩, (out_flush _).mpr (by show (8 * (i 0).val + 7) % 8 = 7; omega), ?_⟩
  rw [mem_blk4]
  have e0 := out_index0 ⟨8 * (i 0).val + 7, hN⟩
  have e1 := out_index1 ⟨8 * (i 0).val + 7, hN⟩
  have e2 := out_index2 ⟨8 * (i 0).val + 7, hN⟩
  intro a
  match a with
  | ⟨0, _⟩ =>
    show win0_4.index ⟨8 * (i 0).val + 7, hN⟩ (0 : Fin 3) * 1 ≤ (i 0).val ∧ (i 0).val < win0_4.index ⟨8 * (i 0).val + 7, hN⟩ (0 : Fin 3) * 1 + 1
    rw [e0]; show (8 * (i 0).val + 7) / 8 * 1 ≤ (i 0).val ∧ (i 0).val < (8 * (i 0).val + 7) / 8 * 1 + 1; omega
  | ⟨1, _⟩ =>
    show win0_4.index ⟨8 * (i 0).val + 7, hN⟩ (1 : Fin 3) * 8 ≤ (i 1).val ∧ (i 1).val < win0_4.index ⟨8 * (i 0).val + 7, hN⟩ (1 : Fin 3) * 8 + 8
    rw [e1]; omega
  | ⟨2, _⟩ =>
    show win0_4.index ⟨8 * (i 0).val + 7, hN⟩ (2 : Fin 3) * 128 ≤ (i 2).val ∧ (i 2).val < win0_4.index ⟨8 * (i 0).val + 7, hN⟩ (2 : Fin 3) * 128 + 128
    rw [e2]; omega

/-- THE RESULT ARRAY after the region: when the buffer written back at the last point of each block row is that row's
    tile of `G`, the array ends holding `G`. -/
theorem arrAt4_eq (c : Dev nD) (G : FVec F S8x8x128 .f32)
    (hG : ∀ (t : Fin cfg0.N), t.val % 8 = 7 → ∀ (r : Fin 8) (l : Fin 128),
      (outsAt m c t.val t.isLt).1 (ix3 (0 : Fin 1) r l) = G (ix3 (brow t) r l)) :
    (dats m 0 c).arrAt 4 cfg0.N = G := by
  refine (dats m 0 c).arrAt_eq_of_cover 4 G (fun t hf => ?_) (fun i => cover4 i)
  have h7 : t.val % 8 = 7 := (out_flush t).mp hf
  show (cfg0.win 4).cut (grid0.coords t) ((dats m 0 c).after 4 t) = _
  rw [after4]
  funext j
  have h0 : (j 0).val < 1 := (j 0).isLt
  have hr : (j 1).val < 8 := (j 1).isLt
  have hl : (j 2).val < 128 := (j 2).isLt
  show (outsAt m c t.val t.isLt).1 ((cfg0.win 4).xinj (grid0.coords t) j) = G (((cfg0.win 4).blk t).view.emb j)
  have eL : (cfg0.win 4).xinj (grid0.coords t) j = ix3 (0 : Fin 1) (⟨(j 1).val, hr⟩ : Fin 8) (⟨(j 2).val, hl⟩ : Fin 128) :=
    funext fun a => Fin.ext (by
      match a with
      | ⟨0, _⟩ => show (j 0).val = 0; omega
      | ⟨1, _⟩ => rfl
      | ⟨2, _⟩ => rfl)
  have eR : ((cfg0.win 4).blk t).view.emb j = ix3 (brow t) (⟨(j 1).val, hr⟩ : Fin 8) (⟨(j 2).val, hl⟩ : Fin 128) :=
    funext fun a => Fin.ext (by
      have e0 := out_index0 t
      have e1 := out_index1 t
      have e2 := out_index2 t
      match a with
      | ⟨0, _⟩ => show win0_4.index t (0 : Fin 3) * 1 + 1 * (j 0).val = t.val / 8; rw [e0]; omega
      | ⟨1, _⟩ => show win0_4.index t (1 : Fin 3) * 8 + 1 * (j 1).val = (j 1).val; rw [e1]; omega
      | ⟨2, _⟩ => show win0_4.index t (2 : Fin 3) * 128 + 1 * (j 2).val = (j 2).val; rw [e2]; omega)
  rw [eL, eR]
  exact hG t h7 _ _

end Cert.KernelIdeal.Hand

end
-- ==== Proof.KIFinal.lean ====
/-
  The kernel's result, in closed form: the result array's corners hold the block rows' loss sums, the scalar operations
  add them up and scale, and the blocks' sums are the specification's sums over all pairs.
-/
import proofs.«152664_j24507083391380_1_alg».proof.Proof.KIValue
import proofs.«152664_j24507083391380_1_alg».proof.Proof.KIFinalArr

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The result array after the region: block row `i`'s sum at the row's corner, zero elsewhere. -/
def outG (c : Dev nD) : FVec Ideal S8x8x128 .f32 :=
  fun idx => if (idx 1).val = 0 ∧ (idx 2).val = 0 then accN m c (8 * (idx 0).val + 7) else 0

theorem outArr_eq (c : Dev nD) : outArr m c = outG m c := by
  unfold outArr
  refine arrAt4_eq m c (outG m c) (fun t h7 r l => ?_)
  rw [out_at m c t r l]
  show _ = if r.val = 0 ∧ l.val = 0 then accN m c (8 * (brow t).val + 7) else 0
  have e : 8 * (brow t).val + 7 = t.val := by rw [brow_val]; omega
  rw [e]; unfold accN; rw [dif_pos t.isLt]

/-- The result buffer when the entry point returns: the array summed, times one, over 2²⁵. -/
theorem Wend_v3 (c : Dev nD) :
    Wend m c (Proc.devRef .tc main_v3)
      = Host.divf (F := Ideal) (mulf (constant (F := Ideal) S_ .f32 0x3F800000#32)
          (Host.reduceAdd (outArr m c) (constant (F := Ideal) S_ .f32 0x00000000#32) reducesTo_S8x8x128_S_d0_1_2 h_S_))
          (constant (F := Ideal) S_ .f32 0x4C000000#32) := by
  unfold Wend
  show StableHlo.after hostOps1 _ (Proc.devRef .tc main_v3) = _
  after_results
  rw [Wexit_out]

/-- The block sums at point `8 i + j` are the pairs' losses over block `(i, j)`. -/
theorem bN_eq (c : Dev nD) (i j : Fin 8) :
    bN m c (8 * i.val + j.val)
      = (∑ p : Fin 512, ∑ q : Fin 512, Spec.loss (V m c main_arg0) (V m c main_arg2) (Sums.blk i p) (Sums.blk j q))
        + (∑ p : Fin 512, ∑ q : Fin 512, Spec.loss (V m c main_arg1) (V m c main_arg2) (Sums.blk i p) (Sums.blk j q)) := by
  have hi : i.val < 8 := i.isLt
  have hj : j.val < 8 := j.isLt
  have hN : cfg0.N = 64 := N_0
  have hlt : 8 * i.val + j.val < cfg0.N := by omega
  unfold bN; rw [dif_pos hlt]; unfold bsum
  have hr : brow ⟨8 * i.val + j.val, hlt⟩ = i := Fin.ext (by rw [brow_val]; show (8 * i.val + j.val) / 8 = i.val; omega)
  have hc : bcol ⟨8 * i.val + j.val, hlt⟩ = j := Fin.ext (by rw [bcol_val]; show (8 * i.val + j.val) % 8 = j.val; omega)
  exact bsumOf_eq _ _ _ _ (V m c main_arg2) (V m c main_arg0) (V m c main_arg1) i j
    (fun p k => by rw [iblk0_apply, hr]) (fun q k => by rw [iblk1_apply, hc])
    (fun p q => by rw [iblk2_apply, hr, hc]) (fun p q => by rw [iblk3_apply, hr, hc])

/-- THE KERNEL'S VALUE: the specification's total of the three argument tables. -/
theorem kernel_value (c : Dev nD) (j : S_.Idx) :
    Wend m c (Proc.devRef .tc main_v3) j = Spec.total (V m c main_arg0) (V m c main_arg1) (V m c main_arg2) := by
  rw [Wend_v3, outArr_eq]
  rw [Sums.tail_value (outG m c) (fun i => accN m c (8 * i.val + 7)) (fun i r l => rfl) j]
  unfold Spec.total Spec.lossSum
  have hs : (∑ i : Fin 8, accN m c (8 * i.val + 7))
      = (∑ x : Fin 4096, ∑ y : Fin 4096, Spec.loss (V m c main_arg0) (V m c main_arg2) x y)
        + (∑ x : Fin 4096, ∑ y : Fin 4096, Spec.loss (V m c main_arg1) (V m c main_arg2) x y) := by
    simp only [accN_row]
    exact rows_total (bN m c) _ _ (bN_eq m c)
  rw [hs]

end Cert.KernelIdeal.Hand

end
-- ==== Proof.RefLaw.lean ====
/-
  The final scalar law of the reference, over the extended reals.

  The reference divides each table's sum by 2²⁴, adds the two quotients, halves the result and multiplies by one;
  the specification adds the two sums, multiplies by one and divides once by 2²⁵.  Division by a nonzero real literal is
  multiplication by its reciprocal, a nonnegative finite coefficient, and such a coefficient distributes over a sum of
  extended reals whatever the summands are (infinite ones, and ⊤ + ⊥, included), so the two agree for all sums.
-/
import proofs.«152664_j24507083391380_1_alg».proof.Proof.Spec

noncomputable section

namespace Cert.RefLaw

open Idealize.ShloMosaic

/-- The word 0x3F800000 is 1. -/
theorem c1_eq : Cert.Spec.c1 = 1 := by
  simp [Ideal.ofBits, Ideal.ieee, -EReal.coe_mul]; norm_num

/-- The word 0x43000000 is 128. -/
theorem c128_eq : Cert.Spec.c128 = ((128 : ℝ) : EReal) := by
  simp [Ideal.ofBits, Ideal.ieee, -EReal.coe_mul]; norm_num

/-- The word 0x4C000000 is 2²⁵. -/
theorem c2p25_eq : Cert.Spec.c2p25 = ((33554432 : ℝ) : EReal) := by
  simp [Ideal.ofBits, Ideal.ieee, -EReal.coe_mul]; norm_num

/-- The word 0x4B800000 is 2²⁴. -/
theorem w2p24_eq : Ideal.ofBits .f32 0x4B800000#32 = ((16777216 : ℝ) : EReal) := by
  simp [Ideal.ofBits, Ideal.ieee, -EReal.coe_mul]; norm_num

/-- The word 0x40000000 is 2. -/
theorem w2_eq : Ideal.ofBits .f32 0x40000000#32 = ((2 : ℝ) : EReal) := by
  simp [Ideal.ofBits, Ideal.ieee, -EReal.coe_mul]; norm_num

/-- A nonnegative real coefficient distributes over any sum of extended reals. -/
theorem add_mul_coe {c : ℝ} (hc : 0 ≤ c) (y z : EReal) : (y + z) * (c : EReal) = y * (c : EReal) + z * (c : EReal) :=
  EReal.right_distrib_of_nonneg_of_ne_top (by exact_mod_cast hc) (EReal.coe_ne_top c) y z

/-- The reference's 1 · (((0 + S0) / 2²⁴ + (0 + S1) / 2²⁴) / 2) is the specification's (1 · (S0 + S1)) / 2²⁵,
    for all extended reals S0, S1. -/
theorem scale_law (S0 S1 : EReal) :
    Cert.Spec.c1 *
        Ideal.div
          (Ideal.div (Ideal.ofBits .f32 0x00000000#32 + S0) (Ideal.ofBits .f32 0x4B800000#32)
            + Ideal.div (Ideal.ofBits .f32 0x00000000#32 + S1) (Ideal.ofBits .f32 0x4B800000#32))
          (Ideal.ofBits .f32 0x40000000#32)
      = Ideal.div (Cert.Spec.c1 * (S0 + S1)) Cert.Spec.c2p25 := by
  rw [c1_eq, c2p25_eq, w2p24_eq, w2_eq, Ideal.ofBits_zero_f32, zero_add, zero_add, one_mul, one_mul,
    Ideal.div_coe (by norm_num : (16777216 : ℝ) ≠ 0), Ideal.div_coe (by norm_num : (16777216 : ℝ) ≠ 0),
    Ideal.div_coe (by norm_num : (2 : ℝ) ≠ 0), Ideal.div_coe (by norm_num : (33554432 : ℝ) ≠ 0),
    ← add_mul_coe (by norm_num : (0 : ℝ) ≤ 1 / 16777216), mul_assoc, ← EReal.coe_mul]
  norm_num

end Cert.RefLaw

end
-- ==== Proof.RefSide.lean ====
/-
  The reference program, read down to the specification.

  The reference extends every label row by 128 ones.  The inner product of two extended rows is the label rows' inner
  product plus 128 (the ones contribute 128 products 1 · 1), and likewise a row's squared norm; the product of the
  column of norms with its own transpose contracts an axis of extent one, so each entry is the product of two norms.
  Hence the reference's label of a pair of rows is the specification's, its smooth-L1 distance to a prediction is the
  specification's loss, the sum over a whole prediction table is the double sum over pairs, and the closing scalar
  arithmetic is the law proved over all extended reals in the neighbouring module.
-/
import proofs.«152664_j24507083391380_1_alg».proof.Proof.Spec
import proofs.«152664_j24507083391380_1_alg».proof.Proof.RefLaw
import proofs.«152664_j24507083391380_1_alg».proof.Proof.Gen.ReferenceIdeal.Read
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

/-- A sum over 256 terms is the sum over the first 128 plus the sum over the last 128. -/
theorem sum_fin256 {M : Type*} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) (f : Fin (128 + 128) → M)

/-- The extended table's first 128 columns are the label table's. -/
theorem v1_left (L : (⟨S4096x128, .f32⟩ : BufTy).Contents (Elt Ideal)) (x : Fin 4096) (k : Fin 128) :
    val_main_v1 (F := Ideal) L (ix2 x (⟨k.val, by omega⟩ : Fin 256)) = L (ix2 x k) := by
  unfold val_main_v1
  exact concatenate_pair_apply_left 1 L (val_main_v0 (F := Ideal)) concatenates_S4096x128_S4096x128_S4096x256_d1
    (ix2 x (⟨k.val, by omega⟩ : Fin 256)) rfl (ix2 x k)
    (fun b => match b with
      | ⟨0, _⟩ => rfl
      | ⟨1, _⟩ => rfl)

/-- The extended table's last 128 columns are ones. -/
theorem v1_right (L : (⟨S4096x128, .f32⟩ : BufTy).Contents (Elt Ideal)) (x : Fin 4096) (k : Fin 128) :
    val_main_v1 (F := Ideal) L (ix2 x (⟨128 + k.val, by omega⟩ : Fin 256)) = Cert.Spec.c1 := by
  unfold val_main_v1
  refine (concatenate_pair_apply_right 1 L (val_main_v0 (F := Ideal)) concatenates_S4096x128_S4096x128_S4096x256_d1
    (ix2 x (⟨128 + k.val, by omega⟩ : Fin 256)) rfl rfl (ix2 x k)
    (fun b => match b with
      | ⟨0, _⟩ => fun _ => rfl
      | ⟨1, _⟩ => fun h => absurd rfl h)
    (Nat.add_comm _ _)).trans ?_
  rw [val_main_v0_apply]
  rfl

/-- The 128 products of ones add up to 128. -/
theorem ones_sum : ∑ _k : Fin 128, Cert.Spec.c1 * Cert.Spec.c1 = Cert.Spec.c128 := by
  rw [Cert.RefLaw.c1_eq, Cert.RefLaw.c128_eq, mul_one, Finset.sum_const, Finset.card_univ, Fintype.card_fin, ← EReal.coe_one,
    ← EReal.coe_nsmul]
  norm_num

/-- The inner product of two extended rows is the label rows' inner product plus 128. -/
theorem ext_dot (L : (⟨S4096x128, .f32⟩ : BufTy).Contents (Elt Ideal)) (x y : Fin 4096) :
    ∑ k : Fin 256, val_main_v1 (F := Ideal) L (ix2 x k) * val_main_v1 (F := Ideal) L (ix2 y k)
      = Cert.Spec.dotv L x y + Cert.Spec.c128 := by
  rw [sum_fin256]
  simp only [v1_left, v1_right]
  rw [ones_sum]
  rfl

/-- The product of the extended table with its transpose, at a pair of rows. -/
theorem v3_at (L : (⟨S4096x128, .f32⟩ : BufTy).Contents (Elt Ideal)) (x y : Fin 4096) :
    val_main_v3 (F := Ideal) L (ix2 x y) = Cert.Spec.dotv L x y + Cert.Spec.c128 := by
  rw [val_main_v3_apply]
  refine (Finset.sum_congr rfl fun k _ => ?_).trans (ext_dot L x y)
  rw [val_main_v2_apply]
  have hl : lidx_main_v3 (ix2 x y) k = ix2 x k :=
    funext fun a => match a with | ⟨0, _⟩ => rfl | ⟨1, _⟩ => rfl
  have hr : idx_main_v2 (ridx_main_v3 (ix2 x y) k) = ix2 y k :=
    funext fun a => match a with | ⟨0, _⟩ => rfl | ⟨1, _⟩ => rfl
  rw [hl, hr]

/-- An extended row's squared norm (summed from zero) is the label row's plus 128. -/
theorem v5_at (L : (⟨S4096x128, .f32⟩ : BufTy).Contents (Elt Ideal)) (x : Fin 4096) :
    val_main_v5 (F := Ideal) L (ix1 x) = Cert.Spec.dotv L x x + Cert.Spec.c128 := by
  rw [val_main_v5_apply, val_main_cst_0_apply]
  show Ideal.ofBits .f32 0x00000000#32 + _ = _
  rw [Ideal.ofBits_zero_f32, zero_add]
  refine (Finset.sum_congr rfl fun k _ => ?_).trans (ext_dot L x x)
  rw [val_main_v4_apply]
  have h : idx_main_v5 (ix1 x) k = ix2 x k :=
    funext fun a => match a with | ⟨0, _⟩ => rfl | ⟨1, _⟩ => rfl
  rw [h]
  rfl

/-- The column of norms, at a row. -/
theorem v7_at (L : (⟨S4096x128, .f32⟩ : BufTy).Contents (Elt Ideal)) (x : Fin 4096) :
    val_main_v7 (F := Ideal) L (ix2 x (0 : Fin 1))
      = FloatOps.sqrt (F := Ideal) (φ := .f32) (Cert.Spec.dotv L x x + Cert.Spec.c128) := by
  rw [val_main_v7_apply, val_main_v6_apply]
  have h : idx_main_v6 (ix2 x (0 : Fin 1)) = ix1 x :=
    funext fun a => match a with | ⟨0, _⟩ => rfl
  rw [h, v5_at]
  rfl

/-- The product of the norms' column with its transpose has one term: the two rows' norms multiplied. -/
theorem v9_at (L : (⟨S4096x128, .f32⟩ : BufTy).Contents (Elt Ideal)) (x y : Fin 4096) :
    val_main_v9 (F := Ideal) L (ix2 x y)
      = FloatOps.sqrt (F := Ideal) (φ := .f32) (Cert.Spec.dotv L x x + Cert.Spec.c128)
        * FloatOps.sqrt (F := Ideal) (φ := .f32) (Cert.Spec.dotv L y y + Cert.Spec.c128) := by
  rw [val_main_v9_apply, Fin.sum_univ_one, val_main_v8_apply]
  have hl : lidx_main_v9 (ix2 x y) 0 = ix2 x (0 : Fin 1) :=
    funext fun a => match a with | ⟨0, _⟩ => rfl | ⟨1, _⟩ => rfl
  have hr : idx_main_v8 (ridx_main_v9 (ix2 x y) 0) = ix2 y (0 : Fin 1) :=
    funext fun a => match a with | ⟨0, _⟩ => rfl | ⟨1, _⟩ => rfl
  rw [hl, hr, v7_at, v7_at]

/-- The reference's label of a pair of rows is the specification's. -/
theorem v11_at (L : (⟨S4096x128, .f32⟩ : BufTy).Contents (Elt Ideal)) (x y : Fin 4096) :
    val_main_v11 (F := Ideal) L (ix2 x y) = Cert.Spec.lbl L x y := by
  rw [val_main_v11_apply, val_main_v10_apply, v3_at, v9_at]
  rfl

/-- The reference's loss of a pair of rows against the first prediction table is the specification's. -/
theorem v21_at (O : (⟨S4096x4096, .f32⟩ : BufTy).Contents (Elt Ideal))
    (L : (⟨S4096x128, .f32⟩ : BufTy).Contents (Elt Ideal)) (x y : Fin 4096) :
    val_main_v21 (F := Ideal) O L (ix2 x y) = Cert.Spec.loss O L x y := by
  rw [val_main_v21_apply, val_main_v15_apply, val_main_v18_apply, val_main_v20_apply, val_main_v17_apply,
    val_main_v14_apply, val_main_v16_apply, val_main_v19_apply, val_main_cst_1_apply, val_main_cst_2_apply,
    val_main_cst_3_apply, val_main_v13_apply, val_main_v12_apply, v11_at]
  rfl

/-- The same against the second prediction table. -/
theorem v33_at (O : (⟨S4096x4096, .f32⟩ : BufTy).Contents (Elt Ideal))
    (L : (⟨S4096x128, .f32⟩ : BufTy).Contents (Elt Ideal)) (x y : Fin 4096) :
    val_main_v33 (F := Ideal) O L (ix2 x y) = Cert.Spec.loss O L x y := by
  rw [val_main_v33_apply, val_main_v27_apply, val_main_v30_apply, val_main_v32_apply, val_main_v29_apply,
    val_main_v26_apply, val_main_v28_apply, val_main_v31_apply, val_main_cst_6_apply, val_main_cst_7_apply,
    val_main_cst_8_apply, val_main_v25_apply, val_main_v24_apply, v11_at]
  rfl

/-- The first table's losses, summed over all pairs. -/
theorem sum_v21 (O : (⟨S4096x4096, .f32⟩ : BufTy).Contents (Elt Ideal))
    (L : (⟨S4096x128, .f32⟩ : BufTy).Contents (Elt Ideal)) :
    ∑ j : S4096x4096.Idx, val_main_v21 (F := Ideal) O L j = Cert.Spec.lossSum O L := by
  rw [sum_idx2]
  simp only [v21_at]
  rfl

/-- The second table's losses, summed over all pairs. -/
theorem sum_v33 (O : (⟨S4096x4096, .f32⟩ : BufTy).Contents (Elt Ideal))
    (L : (⟨S4096x128, .f32⟩ : BufTy).Contents (Elt Ideal)) :
    ∑ j : S4096x4096.Idx, val_main_v33 (F := Ideal) O L j = Cert.Spec.lossSum O L := by
  rw [sum_idx2]
  simp only [v33_at]
  rfl

/-- The reference's result, read down to the two sums of losses. -/
theorem v38_top (x0 x1 : (⟨S4096x4096, .f32⟩ : BufTy).Contents (Elt Ideal))
    (x2 : (⟨S4096x128, .f32⟩ : BufTy).Contents (Elt Ideal)) (i : S_.Idx) :
    val_main_v38 (F := Ideal) x0 x1 x2 i =
      Cert.Spec.c1 *
        Ideal.div
          (Ideal.div (Ideal.ofBits .f32 0x00000000#32 + Cert.Spec.lossSum x0 x2) (Ideal.ofBits .f32 0x4B800000#32)
            + Ideal.div (Ideal.ofBits .f32 0x00000000#32 + Cert.Spec.lossSum x1 x2) (Ideal.ofBits .f32 0x4B800000#32))
          (Ideal.ofBits .f32 0x40000000#32) := by
  rw [val_main_v38_apply, val_main_v37_apply, val_main_v36_apply, val_main_v23_apply, val_main_v35_apply,
    val_main_v22_apply, val_main_v34_apply, sum_v21, sum_v33]
  rfl

/-- The reference's result is the specification's total. -/
theorem ref_total (x0 x1 : (⟨Cert.ReferenceIdeal.S4096x4096, .f32⟩ : BufTy).Contents (Elt Ideal))
    (x2 : (⟨Cert.ReferenceIdeal.S4096x128, .f32⟩ : BufTy).Contents (Elt Ideal)) (i : Cert.ReferenceIdeal.S_.Idx) :
    Cert.ReferenceIdeal.Read.val_main_v38 (F := Ideal) x0 x1 x2 i = Cert.Spec.total x0 x1 x2 :=
  (v38_top x0 x1 x2 i).trans (Cert.RefLaw.scale_law (Cert.Spec.lossSum x0 x2) (Cert.Spec.lossSum x1 x2))

end Cert.RefSide

end
-- ==== Proof.lean ====
/-
  The certificate's five claims.

  Both programs compute, from a 4096 × 128 label table and two 4096 × 4096 prediction tables, the mean smooth-L1 distance
  between each prediction table and the table of integer labels ⌊cos⌋ of every pair of label rows extended by 128 ones —
  the two means averaged.  The kernel tiles the 4096 × 4096 pairs into 8 × 8 blocks of 512 × 512, keeps one running sum per
  block row in a one-word scratch, writes each row's sum to a corner of an 8 × 8 × 128 result array, and leaves the final
  sum, the factor one and the division by 2 · 4096² to scalar operations after the region; the reference forms the whole
  tables and divides each sum by 4096², adds and halves.  Over the extended reals the two agree on all inputs: sums may
  be regrouped freely, the extended rows' 256-term products split into the 128-term product plus 128, and scaling by a
  positive real distributes over a sum of two extended reals.

  The kernel's frame and value are proved through the pipeline's launch rule with the label table — read through two
  windows — held by halves; the word-level program's frame is the same proof at the other instance.
-/
import proofs.«152664_j24507083391380_1_alg».proof.Defs
import proofs.«152664_j24507083391380_1_alg».proof.Proof.Gen.Kernel
import proofs.«152664_j24507083391380_1_alg».proof.Proof.Gen.KernelIdeal
import proofs.«152664_j24507083391380_1_alg».proof.Proof.Gen.ReferenceIdeal
import proofs.«152664_j24507083391380_1_alg».proof.Proof.Gen.Pre_finite_inputs
import proofs.«152664_j24507083391380_1_alg».proof.Proof.Gen.ReferenceIdeal.Run
import proofs.«152664_j24507083391380_1_alg».proof.Proof.Gen.ReferenceIdeal.Read
import proofs.«152664_j24507083391380_1_alg».proof.Proof.KBLaunch
import proofs.«152664_j24507083391380_1_alg».proof.Proof.KIFinal
import proofs.«152664_j24507083391380_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its three argument tables as they were. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference, a straight line of host operations, runs to the end with its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's total of the argument tables. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (funext fun j => Cert.KernelIdeal.Hand.kernel_value m c j), (h c).2⟩)
      (Cert.KernelIdeal.Hand.run_main m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v38_eq, (hagree c).1, (hagree c).2.1, (hagree c).2.2]
    exact funext fun i => Cert.RefSide.ref_total _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
